-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x3 : Shape := ⟨3, ![8, 4096, 3]⟩
abbrev S_ : Shape := ⟨0, ![]⟩

class Facts : Prop where
  bcast_S_S8x4096x3 : S_.BroadcastsInDim S8x4096x3 (![] : Fin 0 → Fin S8x4096x3.rank)
  reducesTo_S8x4096x3_S_d0_1_2 : S8x4096x3.ReducesTo [0, 1, 2] S_
  h_S_ : 0 < S_.numel

variable [Facts]

def fn {F : FTy → Type} [FloatOps F] (main_arg0 : FVec F S8x4096x3 .f32) (main_arg1 : FVec F S8x4096x3 .f32) : IVec S_ 1 :=
  let main_v0 : FVec F S8x4096x3 .f32 := Host.absf main_arg0
  let main_cst : FVec F S_ .f32 := constant S_ .f32 0x7F800000#32
  let main_v1 : FVec F S8x4096x3 .f32 := broadcastInDim S8x4096x3 ![] bcast_S_S8x4096x3 main_cst
  let main_v2 : IVec S8x4096x3 1 := cmpf .olt main_v0 main_v1
  let main_c : IVec S_ 1 := constantI S_ 1 1#1
  let main_v3 : IVec S_ 1 := (fun x v => Host.reduce IntOp.andi x v reducesTo_S8x4096x3_S_d0_1_2 h_S_) main_v2 main_c
  let main_v4 : FVec F S8x4096x3 .f32 := Host.absf main_arg1
  let main_cst_0 : FVec F S_ .f32 := constant S_ .f32 0x7F800000#32
  let main_v5 : FVec F S8x4096x3 .f32 := broadcastInDim S8x4096x3 ![] bcast_S_S8x4096x3 main_cst_0
  let main_v6 : IVec S8x4096x3 1 := cmpf .olt main_v4 main_v5
  let main_c_1 : IVec S_ 1 := constantI S_ 1 1#1
  let main_v7 : IVec S_ 1 := (fun x v => Host.reduce IntOp.andi x v reducesTo_S8x4096x3_S_d0_1_2 h_S_) main_v6 main_c_1
  let main_v8 : IVec S_ 1 := andi main_v3 main_v7
  main_v8
-- ==== Kernel.lean ====
abbrev S8x4096x3 : Shape := ⟨3, ![8, 4096, 3]⟩
abbrev S8x3x4096 : Shape := ⟨3, ![8, 3, 4096]⟩
abbrev S8x1x4096 : Shape := ⟨3, ![8, 1, 4096]⟩
abbrev S1x1024x3 : Shape := ⟨3, ![1, 1024, 3]⟩
abbrev S1x3x1024 : Shape := ⟨3, ![1, 3, 1024]⟩
abbrev S1x1x1024 : Shape := ⟨3, ![1, 1, 1024]⟩
abbrev S1x1x4096 : Shape := ⟨3, ![1, 1, 4096]⟩
abbrev S1024x3 : Shape := ⟨2, ![1024, 3]⟩
abbrev S3x1024 : Shape := ⟨2, ![3, 1024]⟩
abbrev S1024 : Shape := ⟨1, ![1024]⟩
abbrev S1024x1024 : Shape := ⟨2, ![1024, 1024]⟩
abbrev S1024x1 : Shape := ⟨2, ![1024, 1]⟩
abbrev S1x1024 : Shape := ⟨2, ![1, 1024]⟩
abbrev S8x4096 : Shape := ⟨2, ![8, 4096]⟩
abbrev S_ : Shape := ⟨0, ![]⟩

abbrev nBuf : Space → Nat
  | .hbm => 18
  | .vmem => 8
  | .smem => 0
  | _ => 0

abbrev bufTy : (tb : Table) → Fin (tcTables nBuf tb) → BufTy
  | .hbm, ⟨0, _⟩ => ⟨S8x4096x3, .f32⟩
  | .hbm, ⟨1, _⟩ => ⟨S8x4096x3, .f32⟩
  | .hbm, ⟨2, _⟩ => ⟨S8x3x4096, .f32⟩
  | .hbm, ⟨3, _⟩ => ⟨S8x1x4096, .f32⟩
  | .hbm, ⟨4, _⟩ => ⟨S8x1x4096, .f32⟩
  | .hbm, ⟨5, _⟩ => ⟨S8x4096, .f32⟩
  | .hbm, ⟨6, _⟩ => ⟨S8x4096, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .local _ .vmem, ⟨0, _⟩ => ⟨S1x1024x3, .f32⟩
  | .local _ .vmem, ⟨1, _⟩ => ⟨S1x1024x3, .f32⟩
  | .local _ .vmem, ⟨2, _⟩ => ⟨S1x3x1024, .f32⟩
  | .local _ .vmem, ⟨3, _⟩ => ⟨S1x3x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x4096, .f32⟩
  | .local _ .vmem, ⟨7, _⟩ => ⟨S1x1x4096, .f32⟩
  | _, _ => ⟨S8x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_cst_3 : Ref sig .tc := ⟨.hbm, 16, rfl⟩
abbrev main_v9 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 4], ![false, false, false]⟩

def k0_mult1 (i : grid0.Coords) : BitVec 32 :=
  let arg2 : BitVec 32 := BitVec.ofNat 32 (i 2).val
  let c1024_i32 : BitVec 32 := 1024#32
  let v34 : BitVec 32 := Scalar.muli arg2 c1024_i32
  v34
def k0_off1 (i : grid0.Coords) : Fin 3 → Nat :=
  let c0_20 : Index := 0#32
  let c0_21 : Index := 0#32
  let arg2 : BitVec 32 := BitVec.ofNat 32 (i 2).val
  let c1024_i32 : BitVec 32 := 1024#32
  let v34 : BitVec 32 := Scalar.muli arg2 c1024_i32
  let v35 : BitVec 32 := v34
  let v36 : Index := Scalar.indexCast v35
  ![0, 0, v36.toNat]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x3x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

class Facts₀ : Prop where
  transposes_S8x4096x3_S8x3x4096_0_2_1 : S8x4096x3.Transposes [0, 2, 1] S8x3x4096
  inb_S1x1x1024_S1x1x1024_0_0_0 : ∀ a, (![0, 0, 0] : Fin 3 → Nat) a + S1x1x1024.size a ≤ S1x1x1024.size a
  h_S1x1x1024 : 0 < S1x1x1024.numel
  inb_S1x1x4096_S1x1x4096_0_0_0 : ∀ a, (![0, 0, 0] : Fin 3 → Nat) a + S1x1x4096.size a ≤ S1x1x4096.size a
  h_S1x1x4096 : 0 < S1x1x4096.numel
  inb_S1x1024x3_S1x1024x3_0_0_0 : ∀ a, (![0, 0, 0] : Fin 3 → Nat) a + S1x1024x3.size a ≤ S1x1024x3.size a
  h_S1x1024x3 : 0 < S1x1024x3.numel
  shapeCasts_S1x1024x3_S1024x3 : S1x1024x3.ShapeCasts S1024x3
  inb_S1x3x1024_S1x3x1024_0_0_0 : ∀ a, (![0, 0, 0] : Fin 3 → Nat) a + S1x3x1024.size a ≤ S1x3x1024.size a
  h_S1x3x1024 : 0 < S1x3x1024.numel
  shapeCasts_S1x3x1024_S3x1024 : S1x3x1024.ShapeCasts S3x1024
  reduces_S1024x3_S1024 : S1024x3.Reduces [1] S1024
  reduces_S3x1024_S1024 : S3x1024.Reduces [0] S1024
  bitsLt_bf16_f32 : FTy.bits .bf16 < FTy.bits .f32
  shapeCasts_S1024_S1024x1 : S1024.ShapeCasts S1024x1
  shapeCasts_S1024_S1x1024 : S1024.ShapeCasts S1x1024
  broadcasts_S1024x1_S1024x1024 : S1024x1.Broadcasts S1024x1024
  broadcasts_S1x1024_S1024x1024 : S1x1024.Broadcasts S1024x1024
  reduces_S1024x1024_S1024 : S1024x1024.Reduces [1] S1024
  shapeCasts_S1x1x1024_S1x1x1024 : S1x1x1024.ShapeCasts S1x1x1024
  shapeCasts_S1024_S1x1x1024 : S1024.ShapeCasts S1x1x1024
  reduces_S1024x1024_S1024_2 : S1024x1024.Reduces [0] S1024
  shapeCasts_S8x1x4096_S8x4096 : S8x1x4096.ShapeCasts S8x4096
  reducesTo_S8x4096_S_d0_1 : S8x4096.ReducesTo [0, 1] S_
  h_S_ : 0 < S_.numel
  dot_S1024x3_S3x1024_S1024x1024_1_0_0_1_n_n_wf : DotDims.WF S1024x3 S3x1024 S1024x1024 [1] [0] [0] [1] [] []
  hrank0 : 0 < grid0.rank
  k0_mult1_dvd : ∀ i : grid0.Coords, 128 ∣ (k0_mult1 i).toNat
  k0_off1_inb : ∀ i : grid0.Coords, ∀ a, (k0_off1 i) a + S1x1x1024.size a ≤ S1x1x4096.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x3.size a ≤ S8x4096x3.size a
  hwx0_0 : ∀ i : grid0.Coords, EltTy.bits .f32 = 32 ∨ (Rect.block (s := S8x4096x3) S1x1024x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3x1024.size a ≤ S8x3x4096.size a
  hwx0_1 : ∀ i : grid0.Coords, EltTy.bits .f32 = 32 ∨ (Rect.block (s := S8x3x4096) S1x3x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1024.size a ≤ S8x1x4096.size a
  hwx0_2 : ∀ i : grid0.Coords, EltTy.bits .f32 = 32 ∨ (Rect.block (s := S8x1x4096) S1x1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x4096.size a ≤ S8x1x4096.size a
  hwx0_3 : ∀ i : grid0.Coords, EltTy.bits .f32 = 32 ∨ (Rect.block (s := S8x1x4096) S1x1x4096.size (cc0_transform_3 i) (hinb0_3 i)).WholeWords (EltTy.packing .f32)

variable [Facts₀]

def dot_S1024x3_S3x1024_S1024x1024_1_0_0_1_n_n : DotDims S1024x3 S3x1024 S1024x1024 where
  lhsContracting := [1]
  rhsContracting := [0]
  lhsNonContracting := [0]
  rhsNonContracting := [1]
  lhsBatch := []
  rhsBatch := []
  wf := dot_S1024x3_S3x1024_S1024x1024_1_0_0_1_n_n_wf

abbrev win0_0 : Pipeline.Window sig grid0 :=
  Pipeline.Window.ofSpec (Memref.whole main_arg0) S1x1024x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x3x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S1x1x1024.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S1x1x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x4096x3 : Shape := ⟨3, ![8, 4096, 3]⟩
abbrev S_ : Shape := ⟨0, ![]⟩
abbrev S8x4096 : Shape := ⟨2, ![8, 4096]⟩
abbrev S8x4096x4096 : Shape := ⟨3, ![8, 4096, 4096]⟩
abbrev S8x4096x1 : Shape := ⟨3, ![8, 4096, 1]⟩
abbrev S8x1x4096 : Shape := ⟨3, ![8, 1, 4096]⟩

abbrev nBuf : Space → Nat
  | .hbm => 33
  | .vmem => 0
  | .smem => 0
  | _ => 0

abbrev bufTy : (tb : Table) → Fin (tcTables nBuf tb) → BufTy
  | .hbm, ⟨0, _⟩ => ⟨S8x4096x3, .f32⟩
  | .hbm, ⟨1, _⟩ => ⟨S8x4096x3, .f32⟩
  | .hbm, ⟨2, _⟩ => ⟨S8x4096x3, .f32⟩
  | .hbm, ⟨3, _⟩ => ⟨S_, .f32⟩
  | .hbm, ⟨4, _⟩ => ⟨S8x4096, .f32⟩
  | .hbm, ⟨5, _⟩ => ⟨S8x4096x3, .f32⟩
  | .hbm, ⟨6, _⟩ => ⟨S_, .f32⟩
  | .hbm, ⟨7, _⟩ => ⟨S8x4096, .f32⟩
  | .hbm, ⟨8, _⟩ => ⟨S8x4096x4096, .f32⟩
  | .hbm, ⟨9, _⟩ => ⟨S8x4096x1, .f32⟩
  | .hbm, ⟨10, _⟩ => ⟨S8x1x4096, .f32⟩
  | .hbm, ⟨11, _⟩ => ⟨S8x4096x4096, .f32⟩
  | .hbm, ⟨12, _⟩ => ⟨S8x4096x4096, .f32⟩
  | .hbm, ⟨13, _⟩ => ⟨S8x4096x4096, .f32⟩
  | .hbm, ⟨14, _⟩ => ⟨S_, .f32⟩
  | .hbm, ⟨15, _⟩ => ⟨S8x4096x4096, .f32⟩
  | .hbm, ⟨16, _⟩ => ⟨S8x4096x4096, .f32⟩
  | .hbm, ⟨17, _⟩ => ⟨S8x4096x4096, .f32⟩
  | .hbm, ⟨18, _⟩ => ⟨S_, .f32⟩
  | .hbm, ⟨19, _⟩ => ⟨S8x4096, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S8x4096, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | _, _ => ⟨S8x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_cst_3 : Ref sig .tc := ⟨.hbm, 20, rfl⟩
abbrev main_v14 : Ref sig .tc := ⟨.hbm, 21, rfl⟩
abbrev main_cst_4 : Ref sig .tc := ⟨.hbm, 22, rfl⟩
abbrev main_v15 : Ref sig .tc := ⟨.hbm, 23, rfl⟩
abbrev main_cst_5 : Ref sig .tc := ⟨.hbm, 24, rfl⟩
abbrev main_v16 : Ref sig .tc := ⟨.hbm, 25, rfl⟩
abbrev main_cst_6 : Ref sig .tc := ⟨.hbm, 26, rfl⟩
abbrev main_v17 : Ref sig .tc := ⟨.hbm, 27, rfl⟩
abbrev main_cst_7 : Ref sig .tc := ⟨.hbm, 28, rfl⟩
abbrev main_v18 : Ref sig .tc := ⟨.hbm, 29, rfl⟩
abbrev main_v19 : Ref sig .tc := ⟨.hbm, 30, rfl⟩
abbrev main_cst_8 : Ref sig .tc := ⟨.hbm, 31, rfl⟩
abbrev main_v20 : Ref sig .tc := ⟨.hbm, 32, rfl⟩

abbrev nD : Nat := 1
abbrev τ : Topo := Topo.v7x

variable {F : FTy → Type} [FloatOps F]

class Facts₀ : Prop where
  reducesTo_S8x4096x3_S8x4096_d2 : S8x4096x3.ReducesTo [2] S8x4096
  h_S_ : 0 < S_.numel
  bcast_S8x4096_S8x4096x1_0_1 : S8x4096.BroadcastsInDim S8x4096x1 (![0, 1] : Fin 2 → Fin S8x4096x1.rank)
  bcast_S8x4096_S8x1x4096_0_2 : S8x4096.BroadcastsInDim S8x1x4096 (![0, 2] : Fin 2 → Fin S8x1x4096.rank)
  bcast_S8x4096x1_S8x4096x4096_0_1_2 : S8x4096x1.BroadcastsInDim S8x4096x4096 (![0, 1, 2] : Fin 3 → Fin S8x4096x4096.rank)
  bcast_S8x1x4096_S8x4096x4096_0_1_2 : S8x1x4096.BroadcastsInDim S8x4096x4096 (![0, 1, 2] : Fin 3 → Fin S8x4096x4096.rank)
  bcast_S_S8x4096x4096 : S_.BroadcastsInDim S8x4096x4096 (![] : Fin 0 → Fin S8x4096x4096.rank)
  reducesTo_S8x4096x4096_S8x4096_d1 : S8x4096x4096.ReducesTo [1] S8x4096
  reducesTo_S8x4096_S_d0_1 : S8x4096.ReducesTo [0, 1] S_
  reducesTo_S8x4096x4096_S8x4096_d2 : S8x4096x4096.ReducesTo [2] S8x4096
  dot_S8x4096x3_S8x4096x3_S8x4096x4096_2_2_1_1_0_0_wf : DotDims.WF S8x4096x3 S8x4096x3 S8x4096x4096 [2] [2] [1] [1] [0] [0]

variable [Facts₀]

def dot_S8x4096x3_S8x4096x3_S8x4096x4096_2_2_1_1_0_0 : DotDims S8x4096x3 S8x4096x3 S8x4096x4096 where
  lhsContracting := [2]
  rhsContracting := [2]
  lhsNonContracting := [1]
  rhsNonContracting := [1]
  lhsBatch := [0]
  rhsBatch := [0]
  wf := dot_S8x4096x3_S8x4096x3_S8x4096x4096_2_2_1_1_0_0_wf

class Facts : Prop extends Facts₀ where

variable [Facts]
-- ==== Proof.KShared.lean ====
/-
  What the three runs of the kernel body share. The grid is (batch, row tile, column tile) = (8, 4, 4), walked with the
  column tile fastest, so point t is batch t / 16, row tile (t / 4) % 4, column tile t % 4. The body has two
  conditionals: the first resets the running row minimum when a row tile starts (column tile 0, t ≡ 0 mod 4), the
  second resets the running column minimum when a batch starts (row and column tile 0, t ≡ 0 mod 16).
-/
import proofs.«180144_j377957122587_2_alg».proof.Proof.Gen.Kernel.Frame
import proofs.«180144_j377957122587_2_alg».proof.Proof.Gen.Kernel.Skeleton

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first conditional's test as the body computes it from the coordinates: the column tile is 0. -/
abbrev startsRow (i : grid0.Coords) : Prop :=
  (Scalar.cmpi .ne (Scalar.extui (Scalar.cmpi .eq (BitVec.ofNat 32 (i 2).val) 0#32)) 0#32) = 1#1
/-- It holds exactly at the points ≡ 0 (mod 4). -/
theorem startsRow_iff : ∀ t : Fin cfg0.N, startsRow (grid0.coords t) ↔ t.val % 4 = 0 :=
  (by decide +kernel : ∀ t : Fin grid0.N, startsRow (grid0.coords t) ↔ t.val % 4 = 0)

/-- The second conditional's test: row tile and column tile are both 0. -/
abbrev startsBatch (i : grid0.Coords) : Prop :=
  (Scalar.cmpi .ne (Scalar.extui (Scalar.andi (Scalar.cmpi .eq (BitVec.ofNat 32 (i 1).val) 0#32) (Scalar.cmpi .eq (BitVec.ofNat 32 (i 2).val) 0#32))) 0#32) = 1#1
/-- It holds exactly at the points ≡ 0 (mod 16). -/
theorem startsBatch_iff : ∀ t : Fin cfg0.N, startsBatch (grid0.coords t) ↔ t.val % 16 = 0 :=
  (by decide +kernel : ∀ t : Fin grid0.N, startsBatch (grid0.coords t) ↔ t.val % 16 = 0)

/-- Each window's current staging memref at point t, spelled as the pipeline passes it to the body, and its wholeness. -/
abbrev mx (t : Fin cfg0.N) : Memref sig .tc .vmem S1x1024x3 .f32 := win0_0.stage (cfg0.slots t 0)
abbrev hmx (t : Fin cfg0.N) : (mx t).IsWhole := hstage0_0 ((cfg0.slots t 0).cast nbuf0_0)
abbrev my (t : Fin cfg0.N) : Memref sig .tc .vmem S1x3x1024 .f32 := win0_1.stage (cfg0.slots t 1)
abbrev hmy (t : Fin cfg0.N) : (my t).IsWhole := hstage0_1 ((cfg0.slots t 1).cast nbuf0_1)
abbrev mrow (t : Fin cfg0.N) : Memref sig .tc .vmem S1x1x1024 .f32 := win0_2.stage (cfg0.slots t 2)
abbrev hmrow (t : Fin cfg0.N) : (mrow t).IsWhole := hstage0_2 ((cfg0.slots t 2).cast nbuf0_2)
abbrev mcol (t : Fin cfg0.N) : Memref sig .tc .vmem S1x1x4096 .f32 := win0_3.stage (cfg0.slots t 3)
abbrev hmcol (t : Fin cfg0.N) : (mcol t).IsWhole := hstage0_3 ((cfg0.slots t 3).cast nbuf0_3)

end Cert.Kernel.Body

end
-- ==== Proof.KRunA.lean ====
/-
  The body at a point that starts a batch (both conditionals taken): both running minima are reset to +∞ over their
  whole buffers before anything of them is used, so whatever the two output buffers held is irrelevant.
-/
import proofs.«180144_j377957122587_2_alg».proof.Proof.KShared

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The stores the body makes into the row-minimum buffer and into the column-minimum buffer at a point that starts a
    batch, last first, WITH the run: on whole staging memrefs, the inputs at their blocks and the outputs at anything,
    the body runs to a continuation that is handed the inputs as they were and each output with those stores made. -/
noncomputable def runA (c : Dev nD) (i : grid0.Coords) (arg3 : Memref sig .tc .vmem S1x1024x3 .f32) (harg3 : arg3.IsWhole) (arg4 : Memref sig .tc .vmem S1x3x1024 .f32) (harg4 : arg4.IsWhole) (arg5 : Memref sig .tc .vmem S1x1x1024 .f32) (harg5 : arg5.IsWhole) (arg6 : Memref sig .tc .vmem S1x1x4096 .f32) (harg6 : arg6.IsWhole) (hc0 : startsRow i) (hc1 : startsBatch i)
    (x0 : Vec F S1x1024x3 .f32) (x1 : Vec F S1x3x1024 .f32) :
    { L : List (View.Piece (Elt F) S1x1x1024 .f32) × List (View.Piece (Elt F) S1x1x4096 .f32) //
      ∀ (E : Set ℕ) (K : PUnit → sProp 𝕄),
        iprop(owns (c : Thread nD τ) arg3 fullShare x0 ∗ owns (c : Thread nD τ) arg4 fullShare x1
            ∗ (∃ d, owns (c : Thread nD τ) arg5 fullShare d) ∗ (∃ d, owns (c : Thread nD τ) arg6 fullShare d)
            ∗ (iprop(owns (c : Thread nD τ) arg3 fullShare x0 ∗ owns (c : Thread nD τ) arg4 fullShare x1
                ∗ (∃ f, arg5.view.loc (c : Thread nD τ) ↦[arg5.view.set]{fullShare} arg5.view.writes (Elt F) f L.1)
                ∗ (∃ f, arg6.view.loc (c : Thread nD τ) ↦[arg6.view.set]{fullShare} arg6.view.writes (Elt F) f L.2)) -∗ K ⟨⟩))
          ⊢ wp frame (wpE (defs₀ (F := F)) Variants.none c none) E (cc0__chamfer_kernel i arg3 harg3 arg4 harg4 arg5 harg5 arg6 harg6) K } := by
  refine ⟨⟨?_, ?_⟩, fun E K => ?run⟩
  case run =>
    simp only [cc0__chamfer_kernel_eq_skeleton]; unfold cc0__chamfer_kernel_skel
    simp only [k0_part1_eq_skeleton]
    unfold owns
    iintro ⟨⟨%f0, %hf0, H0⟩, ⟨%f1, %hf1, H1⟩, ⟨%d2, %f2, -, H2⟩, ⟨%d3, %f3, -, H3⟩, Hk⟩
    obtain rfl := harg3.eq_unread hf0; obtain rfl := harg4.eq_unread hf1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; iexact H2
    iexists _; iexact H3

end Cert.Kernel.Body

end
-- ==== Proof.KRunC.lean ====
/-
  The body at a point that starts a row tile but not a batch (first conditional taken, second not): the running row
  minimum is reset over its whole buffer; the running column minimum is read and updated on the current column
  tile's 1024 lanes only, so the rest of its buffer keeps what the point before left.
-/
import proofs.«180144_j377957122587_2_alg».proof.Proof.KRunA

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The stores into the two output buffers at such a point, last first, WITH the run: the inputs at their blocks, the
    row-minimum buffer at anything, the column-minimum buffer at its running contents `xc`; the continuation is handed
    the row-minimum buffer with its stores made over something and the column-minimum buffer with its stores made over
    `xc`. -/
noncomputable def runC (c : Dev nD) (i : grid0.Coords) (arg3 : Memref sig .tc .vmem S1x1024x3 .f32) (harg3 : arg3.IsWhole) (arg4 : Memref sig .tc .vmem S1x3x1024 .f32) (harg4 : arg4.IsWhole) (arg5 : Memref sig .tc .vmem S1x1x1024 .f32) (harg5 : arg5.IsWhole) (arg6 : Memref sig .tc .vmem S1x1x4096 .f32) (harg6 : arg6.IsWhole) (hc0 : startsRow i) (hc1 : ¬startsBatch i)
    (x0 : Vec F S1x1024x3 .f32) (x1 : Vec F S1x3x1024 .f32) (xc : Vec F S1x1x4096 .f32) :
    { L : List (View.Piece (Elt F) S1x1x1024 .f32) × List (View.Piece (Elt F) S1x1x4096 .f32) //
      ∀ (E : Set ℕ) (K : PUnit → sProp 𝕄),
        iprop(owns (c : Thread nD τ) arg3 fullShare x0 ∗ owns (c : Thread nD τ) arg4 fullShare x1
            ∗ (∃ d, owns (c : Thread nD τ) arg5 fullShare d) ∗ owns (c : Thread nD τ) arg6 fullShare xc
            ∗ (iprop(owns (c : Thread nD τ) arg3 fullShare x0 ∗ owns (c : Thread nD τ) arg4 fullShare x1
                ∗ (∃ f, arg5.view.loc (c : Thread nD τ) ↦[arg5.view.set]{fullShare} arg5.view.writes (Elt F) f L.1)
                ∗ (arg6.view.loc (c : Thread nD τ) ↦[arg6.view.set]{fullShare} arg6.view.writes (Elt F) (harg6.unread xc) L.2)) -∗ K ⟨⟩))
          ⊢ wp frame (wpE (defs₀ (F := F)) Variants.none c none) E (cc0__chamfer_kernel i arg3 harg3 arg4 harg4 arg5 harg5 arg6 harg6) K } := by
  refine ⟨⟨?_, ?_⟩, fun E K => ?run⟩
  case run =>
    simp only [cc0__chamfer_kernel_eq_skeleton]; unfold cc0__chamfer_kernel_skel
    simp only [k0_part1_eq_skeleton]
    unfold owns
    iintro ⟨⟨%f0, %hf0, H0⟩, ⟨%f1, %hf1, H1⟩, ⟨%d2, %f2, -, H2⟩, ⟨%f3, %hf3, H3⟩, Hk⟩
    obtain rfl := harg3.eq_unread hf0; obtain rfl := harg4.eq_unread hf1; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; iexact H2
    iexact H3

end Cert.Kernel.Body

end
-- ==== Proof.KRunB.lean ====
/-
  The body at a point inside a row tile (neither conditional taken): both running minima are read and updated — the
  row minimum over its whole buffer, the column minimum on the current column tile's 1024 lanes.
-/
import proofs.«180144_j377957122587_2_alg».proof.Proof.KRunC

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The stores into the two output buffers at such a point, last first, WITH the run: the inputs at their blocks, the
    row-minimum buffer at its running contents `xr`, the column-minimum buffer at its running contents `xc`. -/
noncomputable def runB (c : Dev nD) (i : grid0.Coords) (arg3 : Memref sig .tc .vmem S1x1024x3 .f32) (harg3 : arg3.IsWhole) (arg4 : Memref sig .tc .vmem S1x3x1024 .f32) (harg4 : arg4.IsWhole) (arg5 : Memref sig .tc .vmem S1x1x1024 .f32) (harg5 : arg5.IsWhole) (arg6 : Memref sig .tc .vmem S1x1x4096 .f32) (harg6 : arg6.IsWhole) (hc0 : ¬startsRow i) (hc1 : ¬startsBatch i)
    (x0 : Vec F S1x1024x3 .f32) (x1 : Vec F S1x3x1024 .f32) (xr : Vec F S1x1x1024 .f32) (xc : Vec F S1x1x4096 .f32) :
    { L : List (View.Piece (Elt F) S1x1x1024 .f32) × List (View.Piece (Elt F) S1x1x4096 .f32) //
      ∀ (E : Set ℕ) (K : PUnit → sProp 𝕄),
        iprop(owns (c : Thread nD τ) arg3 fullShare x0 ∗ owns (c : Thread nD τ) arg4 fullShare x1
            ∗ owns (c : Thread nD τ) arg5 fullShare xr ∗ owns (c : Thread nD τ) arg6 fullShare xc
            ∗ (iprop(owns (c : Thread nD τ) arg3 fullShare x0 ∗ owns (c : Thread nD τ) arg4 fullShare x1
                ∗ (∃ f, arg5.view.loc (c : Thread nD τ) ↦[arg5.view.set]{fullShare} arg5.view.writes (Elt F) f L.1)
                ∗ (arg6.view.loc (c : Thread nD τ) ↦[arg6.view.set]{fullShare} arg6.view.writes (Elt F) (harg6.unread xc) L.2)) -∗ K ⟨⟩))
          ⊢ wp frame (wpE (defs₀ (F := F)) Variants.none c none) E (cc0__chamfer_kernel i arg3 harg3 arg4 harg4 arg5 harg5 arg6 harg6) K } := by
  refine ⟨⟨?_, ?_⟩, fun E K => ?run⟩
  case run =>
    simp only [cc0__chamfer_kernel_eq_skeleton]; unfold cc0__chamfer_kernel_skel
    simp only [k0_part1_eq_skeleton]
    unfold owns
    iintro ⟨⟨%f0, %hf0, H0⟩, ⟨%f1, %hf1, H1⟩, ⟨%f2, %hf2, H2⟩, ⟨%f3, %hf3, H3⟩, Hk⟩
    obtain rfl := harg3.eq_unread hf0; obtain rfl := harg4.eq_unread hf1
    obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; iexact H2
    iexact H3

end Cert.Kernel.Body

end
-- ==== Proof.KOuts.lean ====
/-
  What each of the three runs leaves in the two output buffers, as functions of what the buffers held and of the input
  blocks — no memref, no list of stores left. The row-minimum buffer ends at the body's row update of what it started
  from (+∞ where the run reset it); the column-minimum buffer ends as it started except on the current column tile's
  1024 lanes, which hold the body's column update of those lanes.
-/
import proofs.«180144_j377957122587_2_alg».proof.Proof.KRunB
import Idealize.ShloMosaic.Lib.Pipeline.Value

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem zeros3 : (![0, 0, 0] : Fin 3 → Nat) = fun _ => 0 := by
  funext a; fin_cases a <;> rfl

/-- A buffer after a list of stores, read one store at a time: the last store's payload on its rectangle, the earlier
    stores' result off it. -/
theorem read_writes_cons_overlay {sig' : RefSig} {κ' : Kind} {sp' : Space} {s : Shape} {e : EltTy}
    (v : View sig' κ' sp' s e) (f : v.ty.Contents (Elt F)) (p : View.Piece (Elt F) s e) (L : List (View.Piece (Elt F) s e)) :
    v.read (Elt F) (v.writes (Elt F) f (p :: L)) = p.1.overlay (v.read (Elt F) (v.writes (Elt F) f L)) p.2 := by
  funext y
  by_cases hy : y ∈ p.1.set
  · obtain ⟨r, w⟩ := p
    obtain ⟨x, rfl⟩ : ∃ x, r.emb x = y := r.exists_idx_of_mem hy
    rw [View.read_writes_cons_emb, Rect.overlay_emb]
  · have hy' : y ∉ Finset.univ.map p.1.emb := by rwa [Rect.map_emb_univ]
    rw [View.writes_cons, View.read_slice_write_of_not_mem p.1 _ _ _ hy', Rect.overlay_of_not_mem _ _ _ hy]

/-- The current column tile's lanes inside the column-minimum buffer: 1024 lanes from 1024 × the column tile. -/
abbrev colRect (i : grid0.Coords) : Rect S1x1x4096 :=
  Rect.unit (s := S1x1x4096) (k0_off1 i) S1x1x1024.size (k0_off1_inb i)

/-- The column-minimum buffer after the body: as before, except that the current column tile's lanes hold the body's
    column update (the lane-wise minimum of what they held and the tile's column minima). -/
def colUpd (i : grid0.Coords) (x0 : Vec F S1x1024x3 .f32) (x1 : Vec F S1x3x1024 .f32) (xc : Vec F S1x1x4096 .f32) :
    Vec F S1x1x4096 .f32 :=
  (colRect i).overlay xc (k0_pay1 (k0_pay4 x0 x1) (View.ld xc (colRect i)))

section
variable (c : Dev nD) (i : grid0.Coords) (arg3 : Memref sig .tc .vmem S1x1024x3 .f32) (harg3 : arg3.IsWhole) (arg4 : Memref sig .tc .vmem S1x3x1024 .f32) (harg4 : arg4.IsWhole) (arg5 : Memref sig .tc .vmem S1x1x1024 .f32) (harg5 : arg5.IsWhole) (arg6 : Memref sig .tc .vmem S1x1x4096 .f32) (harg6 : arg6.IsWhole) (x0 : Vec F S1x1024x3 .f32) (x1 : Vec F S1x3x1024 .f32)

/-- A point that starts a batch leaves the row update of +∞ in the row-minimum buffer, -/
theorem rowA_read (hc0 : startsRow i) (hc1 : startsBatch i) (f : arg5.view.ty.Contents (Elt F)) :
    arg5.view.read (Elt F) (arg5.view.writes (Elt F) f (runA c i arg3 harg3 arg4 harg4 arg5 harg5 arg6 harg6 hc0 hc1 x0 x1).1.1)
      = k0_pay5 x0 x1 (k0_pay2 (F := F)) := by
  unfold runA; dsimp only; sl_unfold_run_names
  rw [View.read_writes_eq_canon _ _ _ (fun y => ⟨_, List.mem_cons_self, View.mem_set_unit_zero zeros3 inb_S1x1x1024_S1x1x1024_0_0_0 y⟩),
    View.canon_cons_unit_zero zeros3]
  simp only [View.readAt_eq_ld, harg3.read_unread, harg4.read_unread, View.ld_unit_zero (S := S1x1024x3) zeros3, View.ld_unit_zero (S := S1x3x1024) zeros3, View.ld_unit_zero (S := S1x1x1024) zeros3, View.ld_unit_zero (S := S1x1x4096) zeros3, View.readCov_unit_zero (S := S1x1x1024) _ zeros3]

/-- and the column update of +∞ in the column-minimum buffer. -/
theorem colA_read (hc0 : startsRow i) (hc1 : startsBatch i) (f : arg6.view.ty.Contents (Elt F)) :
    arg6.view.read (Elt F) (arg6.view.writes (Elt F) f (runA c i arg3 harg3 arg4 harg4 arg5 harg5 arg6 harg6 hc0 hc1 x0 x1).1.2)
      = colUpd i x0 x1 (k0_pay3 (F := F)) := by
  unfold runA; dsimp only; sl_unfold_run_names
  rw [read_writes_cons_overlay,
    View.read_writes_eq_canon _ _ _ (fun y => ⟨_, List.mem_singleton_self _, View.mem_set_unit_zero zeros3 inb_S1x1x4096_S1x1x4096_0_0_0 y⟩),
    View.canon_unit_zero zeros3]
  unfold colUpd
  simp only [View.readAt_eq_ld, harg3.read_unread, harg4.read_unread, View.ld_unit_zero (S := S1x1024x3) zeros3, View.ld_unit_zero (S := S1x3x1024) zeros3, View.ld_unit_zero (S := S1x1x1024) zeros3, View.ld_unit_zero (S := S1x1x4096) zeros3,
    View.read_writes_junk_eq_canon, View.canon_unit_zero (S := S1x1x4096) zeros3]

/-- A point that starts a row tile but not a batch leaves the row update of +∞ in the row-minimum buffer, -/
theorem rowC_read (hc0 : startsRow i) (hc1 : ¬startsBatch i) (xc : Vec F S1x1x4096 .f32) (f : arg5.view.ty.Contents (Elt F)) :
    arg5.view.read (Elt F) (arg5.view.writes (Elt F) f (runC c i arg3 harg3 arg4 harg4 arg5 harg5 arg6 harg6 hc0 hc1 x0 x1 xc).1.1)
      = k0_pay5 x0 x1 (k0_pay2 (F := F)) := by
  unfold runC; dsimp only; sl_unfold_run_names
  rw [View.read_writes_eq_canon _ _ _ (fun y => ⟨_, List.mem_cons_self, View.mem_set_unit_zero zeros3 inb_S1x1x1024_S1x1x1024_0_0_0 y⟩),
    View.canon_cons_unit_zero zeros3]
  simp only [View.readAt_eq_ld, harg3.read_unread, harg4.read_unread, View.ld_unit_zero (S := S1x1024x3) zeros3, View.ld_unit_zero (S := S1x3x1024) zeros3, View.ld_unit_zero (S := S1x1x1024) zeros3, View.ld_unit_zero (S := S1x1x4096) zeros3, View.readCov_unit_zero (S := S1x1x1024) _ zeros3]

/-- and the column update of the running contents in the column-minimum buffer. -/
theorem colC_read (hc0 : startsRow i) (hc1 : ¬startsBatch i) (xc : Vec F S1x1x4096 .f32) :
    arg6.view.read (Elt F) (arg6.view.writes (Elt F) (harg6.unread xc) (runC c i arg3 harg3 arg4 harg4 arg5 harg5 arg6 harg6 hc0 hc1 x0 x1 xc).1.2)
      = colUpd i x0 x1 xc := by
  unfold runC; dsimp only; sl_unfold_run_names
  rw [read_writes_cons_overlay, View.writes_nil, harg6.read_unread]
  unfold colUpd
  simp only [View.readAt_eq_ld, harg3.read_unread, harg4.read_unread, harg6.read_unread, View.ld_unit_zero (S := S1x1024x3) zeros3, View.ld_unit_zero (S := S1x3x1024) zeros3, View.ld_unit_zero (S := S1x1x1024) zeros3, View.ld_unit_zero (S := S1x1x4096) zeros3]

/-- A point inside a row tile leaves the row update of the running contents in the row-minimum buffer, -/
theorem rowB_read (hc0 : ¬startsRow i) (hc1 : ¬startsBatch i) (xr : Vec F S1x1x1024 .f32) (xc : Vec F S1x1x4096 .f32)
    (f : arg5.view.ty.Contents (Elt F)) :
    arg5.view.read (Elt F) (arg5.view.writes (Elt F) f (runB c i arg3 harg3 arg4 harg4 arg5 harg5 arg6 harg6 hc0 hc1 x0 x1 xr xc).1.1)
      = k0_pay5 x0 x1 xr := by
  unfold runB; dsimp only; sl_unfold_run_names
  rw [View.read_writes_eq_canon _ _ _ (fun y => ⟨_, List.mem_singleton_self _, View.mem_set_unit_zero zeros3 inb_S1x1x1024_S1x1x1024_0_0_0 y⟩),
    View.canon_unit_zero zeros3]
  simp only [View.readAt_eq_ld, harg3.read_unread, harg4.read_unread, harg5.read_unread, View.ld_unit_zero (S := S1x1024x3) zeros3, View.ld_unit_zero (S := S1x3x1024) zeros3, View.ld_unit_zero (S := S1x1x1024) zeros3, View.ld_unit_zero (S := S1x1x4096) zeros3]

/-- and the column update of the running contents in the column-minimum buffer. -/
theorem colB_read (hc0 : ¬startsRow i) (hc1 : ¬startsBatch i) (xr : Vec F S1x1x1024 .f32) (xc : Vec F S1x1x4096 .f32) :
    arg6.view.read (Elt F) (arg6.view.writes (Elt F) (harg6.unread xc) (runB c i arg3 harg3 arg4 harg4 arg5 harg5 arg6 harg6 hc0 hc1 x0 x1 xr xc).1.2)
      = colUpd i x0 x1 xc := by
  unfold runB; dsimp only; sl_unfold_run_names
  rw [read_writes_cons_overlay, View.writes_nil, harg6.read_unread]
  unfold colUpd
  simp only [View.readAt_eq_ld, harg3.read_unread, harg4.read_unread, harg6.read_unread, View.ld_unit_zero (S := S1x1024x3) zeros3, View.ld_unit_zero (S := S1x3x1024) zeros3, View.ld_unit_zero (S := S1x1x1024) zeros3, View.ld_unit_zero (S := S1x1x4096) zeros3]

end

end Cert.Kernel.Body

end
-- ==== Proof.KFrame.lean ====
/-
  The frame run. What the two output buffers hold after each grid point is a recursion on the point: the row minimum
  restarts from +∞ at the points ≡ 0 (mod 4) and otherwise continues from the point before; the column minimum
  restarts at the points ≡ 0 (mod 16). With that as the pipeline's proof data the body meets its obligation at every
  point (one of three runs applies), and the launch theorem gives the run of the whole program: every array of the
  pipeline ends at what the proof data says, the host lines after the region applied on top.
-/
import proofs.«180144_j377957122587_2_alg».proof.Proof.KOuts

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- One point's effect on the pair (row-minimum buffer, column-minimum buffer): the body's row update of +∞ or of the
    running row contents, and its column update of +∞ or of the running column contents, on the point's input blocks. -/
def step (c : Dev nD) (t : Fin cfg0.N) (prev : Vec F S1x1x1024 .f32 × Vec F S1x1x4096 .f32) :
    Vec F S1x1x1024 .f32 × Vec F S1x1x4096 .f32 :=
  (k0_pay5 (iblk m c 0 t) (iblk m c 1 t) (if t.val % 4 = 0 then k0_pay2 (F := F) else prev.1),
   colUpd (grid0.coords t) (iblk m c 0 t) (iblk m c 1 t) (if t.val % 16 = 0 then k0_pay3 (F := F) else prev.2))

/-- What the two output buffers hold after the body at position `n`. -/
def outs (c : Dev nD) : (n : ℕ) → n < cfg0.N → Vec F S1x1x1024 .f32 × Vec F S1x1x4096 .f32
  | 0, h => step m c ⟨0, h⟩ (k0_pay2 (F := F), k0_pay3 (F := F))
  | n + 1, h => step m c ⟨n + 1, h⟩ (outs c n (Nat.lt_of_succ_lt h))

/-- After the first point, a point's contents are one step from the point before's. -/
theorem outs_pred (c : Dev nD) (t : Fin cfg0.N) (ht : t.val ≠ 0) :
    outs m c t.val t.isLt = step m c t (outs m c (t.val - 1) (Nat.lt_of_le_of_lt (Nat.sub_le _ _) t.isLt)) := by
  obtain ⟨n, hn⟩ := t
  cases n with
  | zero => exact absurd rfl ht
  | succ n => rfl

theorem outs_row_reset (c : Dev nD) (t : Fin cfg0.N) (h0 : t.val % 4 = 0) :
    (outs m c t.val t.isLt).1 = k0_pay5 (iblk m c 0 t) (iblk m c 1 t) (k0_pay2 (F := F)) := by
  obtain ⟨n, hn⟩ := t
  cases n with
  | zero => show (step m c ⟨0, hn⟩ _).1 = _; unfold step; dsimp only; rw [if_pos h0]
  | succ n => show (step m c ⟨n + 1, hn⟩ _).1 = _; unfold step; dsimp only; rw [if_pos h0]

theorem outs_col_reset (c : Dev nD) (t : Fin cfg0.N) (h1 : t.val % 16 = 0) :
    (outs m c t.val t.isLt).2 = colUpd (grid0.coords t) (iblk m c 0 t) (iblk m c 1 t) (k0_pay3 (F := F)) := by
  obtain ⟨n, hn⟩ := t
  cases n with
  | zero => show (step m c ⟨0, hn⟩ _).2 = _; unfold step; dsimp only; rw [if_pos h1]
  | succ n => show (step m c ⟨n + 1, hn⟩ _).2 = _; unfold step; dsimp only; rw [if_pos h1]

theorem outs_row_acc (c : Dev nD) (t : Fin cfg0.N) (h0 : ¬t.val % 4 = 0) :
    (outs m c t.val t.isLt).1 = k0_pay5 (iblk m c 0 t) (iblk m c 1 t)
      (outs m c (t.val - 1) (Nat.lt_of_le_of_lt (Nat.sub_le _ _) t.isLt)).1 := by
  rw [outs_pred m c t (fun h => h0 (by rw [h]))]
  unfold step; dsimp only; rw [if_neg h0]

theorem outs_col_acc (c : Dev nD) (t : Fin cfg0.N) (h1 : ¬t.val % 16 = 0) :
    (outs m c t.val t.isLt).2 = colUpd (grid0.coords t) (iblk m c 0 t) (iblk m c 1 t)
      (outs m c (t.val - 1) (Nat.lt_of_le_of_lt (Nat.sub_le _ _) t.isLt)).2 := by
  rw [outs_pred m c t (fun h => h1 (by rw [h]))]
  unfold step; dsimp only; rw [if_neg h1]

/-! ## The pipeline's proof data -/

/-- The arrays as the region finds them; after the body each input's buffer at its block and the outputs' at `outs`;
    the invariant the scoped rest and the generator register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outs m c t.val t.isLt).1
    | ⟨3, _⟩ => (outs m c t.val t.isLt).2
  Φ _ := Pipeline.ΦA spec0 c
  q _ := fullShare
  owed _ := 0

theorem A_eq (c : Dev nD) (w : Fin cfg0.W) : (dats m 0 c).A w = V m c (Pipeline.arrRef spec0 w) := by
  dsimp only [dats]

theorem after_x (c : Dev nD) (t : Fin cfg0.N) : (dats m 0 c).after 0 t = iblk m c 0 t := by dsimp only [dats]
theorem after_y (c : Dev nD) (t : Fin cfg0.N) : (dats m 0 c).after 1 t = iblk m c 1 t := by dsimp only [dats]
theorem after_row (c : Dev nD) (t : Fin cfg0.N) : (dats m 0 c).after 2 t = (outs m c t.val t.isLt).1 := by dsimp only [dats]
theorem after_col (c : Dev nD) (t : Fin cfg0.N) : (dats m 0 c).after 3 t = (outs m c t.val t.isLt).2 := by dsimp only [dats]

/-- Each input's current staging buffer holds its block at every point, fetched there or not. -/
theorem before_x (c : Dev nD) (t : Fin cfg0.N) (d) : (dats m 0 c).before 0 t d = iblk m c 0 t :=
  before0_0_of m (dats m 0 c) (A_eq m c 0) (after_x m c) t d
theorem before_y (c : Dev nD) (t : Fin cfg0.N) (d) : (dats m 0 c).before 1 t d = iblk m c 1 t :=
  before0_1_of m (dats m 0 c) (A_eq m c 1) (after_y m c) t d

/-- Inside a row tile the row-minimum buffer holds what the point before left: it is written back only after the
    row tile's last point. -/
theorem before_row (c : Dev nD) (t : Fin cfg0.N) (h0 : ¬t.val % 4 = 0) (d) :
    (dats m 0 c).before 2 t d = (outs m c (t.val - 1) (Nat.lt_of_le_of_lt (Nat.sub_le _ _) t.isLt)).1 := by
  have hN : t.val < 128 := lt_of_lt_of_eq t.isLt (show cfg0.N = 128 from N_0)
  rw [Dat.before_out_kept _ 2 rfl t (by omega) (Bool.eq_false_iff.mpr fun h => by have := (flush0_2 _).mp h; dsimp only at this; omega)
    (fun _ => rfl) (fun _ _ => rfl)]
  dsimp only [dats]

/-- Inside a batch the column-minimum buffer holds what the point before left: it is written back only after the
    batch's last point. -/
theorem before_col (c : Dev nD) (t : Fin cfg0.N) (h1 : ¬t.val % 16 = 0) (d) :
    (dats m 0 c).before 3 t d = (outs m c (t.val - 1) (Nat.lt_of_le_of_lt (Nat.sub_le _ _) t.isLt)).2 := by
  have hN : t.val < 128 := lt_of_lt_of_eq t.isLt (show cfg0.N = 128 from N_0)
  rw [Dat.before_out_kept _ 3 rfl t (by omega) (Bool.eq_false_iff.mpr fun h => by have := (flush0_3 _).mp h; dsimp only at this; omega)
    (fun _ => rfl) (fun _ _ => rfl)]
  dsimp only [dats]

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (mx t) fullShare ((dats m 0 c).before 0 t d))
    ∗ (∃ d, owns (c : Thread nD τ) (my t) fullShare ((dats m 0 c).before 1 t d))
    ∗ (∃ d, owns (c : Thread nD τ) (mrow t) fullShare ((dats m 0 c).before 2 t d))
    ∗ (∃ d, owns (c : Thread nD τ) (mcol t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (mx t) fullShare ((dats m 0 c).after 0 t)
    ∗ owns (c : Thread nD τ) (my t) fullShare ((dats m 0 c).after 1 t)
    ∗ owns (c : Thread nD τ) (mrow t) fullShare ((dats m 0 c).after 2 t)
    ∗ owns (c : Thread nD τ) (mcol t) fullShare ((dats m 0 c).after 3 t))

set_option maxHeartbeats 1600000 in
/-- The body at any point: the residues of the point say which run applies; an output a run continues holds what the
    point before left; the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_x, before_y]
  rw [show (dats m 0 c).Φ t.succ = (dats m 0 c).Φ t.castSucc from rfl,
    show (dats m 0 c).owesAt () t.succ = (dats m 0 c).owesAt () t.castSucc from rfl,
    after_x, after_y, after_row, after_col]
  have hN : t.val < 128 := lt_of_lt_of_eq t.isLt (show cfg0.N = 128 from N_0)
  by_cases h0 : t.val % 4 = 0
  · by_cases h1 : t.val % 16 = 0
    · rw [outs_row_reset m c t h0, outs_col_reset m c t h1]
      iintro ⟨HΦ, Ho, ⟨%d0, H0⟩, ⟨%d1, H1⟩, ⟨%d2, H2⟩, ⟨%d3, H3⟩⟩
      iapply ((runA c (grid0.coords t) _ _ _ _ _ _ _ _ ((startsRow_iff t).mpr h0) ((startsBatch_iff t).mpr h1) (iblk m c 0 t) (iblk m c 1 t)).2 Set.univ _)
      isplitl [H0]; · iexact H0
      isplitl [H1]; · iexact H1
      isplitl [H2]; · iexists _; iexact H2
      isplitl [H3]; · iexists _; iexact H3
      iintro ⟨H0, H1, ⟨%e2, H2⟩, ⟨%e3, H3⟩⟩
      isplitl [HΦ]; · iexact HΦ
      isplitl [Ho]; · iexact Ho
      isplitl [H0]; · iexact H0
      isplitl [H1]; · iexact H1
      isplitl [H2]
      · unfold owns; iexists _; isplitr
        swap; · iexact H2
        ipureintro; exact rowA_read c _ _ _ _ _ _ _ _ _ _ _ _ _ _
      unfold owns; iexists _; isplitr
      swap; · iexact H3
      ipureintro; exact colA_read c _ _ _ _ _ _ _ _ _ _ _ _ _ _
    · rw [outs_row_reset m c t h0, outs_col_acc m c t h1]
      simp only [before_col m c t h1]
      iintro ⟨HΦ, Ho, ⟨%d0, H0⟩, ⟨%d1, H1⟩, ⟨%d2, H2⟩, ⟨%d3, H3⟩⟩
      iapply ((runC c (grid0.coords t) _ _ _ _ _ _ _ _ ((startsRow_iff t).mpr h0) (fun h => h1 ((startsBatch_iff t).mp h)) (iblk m c 0 t) (iblk m c 1 t) _).2 Set.univ _)
      isplitl [H0]; · iexact H0
      isplitl [H1]; · iexact H1
      isplitl [H2]; · iexists _; iexact H2
      isplitl [H3]; · iexact H3
      iintro ⟨H0, H1, ⟨%e2, H2⟩, H3⟩
      isplitl [HΦ]; · iexact HΦ
      isplitl [Ho]; · iexact Ho
      isplitl [H0]; · iexact H0
      isplitl [H1]; · iexact H1
      isplitl [H2]
      · unfold owns; iexists _; isplitr
        swap; · iexact H2
        ipureintro; exact rowC_read c _ _ _ _ _ _ _ _ _ _ _ _ _ _ _
      unfold owns; iexists _; isplitr
      swap; · iexact H3
      ipureintro; exact colC_read c _ _ _ _ _ _ _ _ _ _ _ _ _ _
  · have h1 : ¬t.val % 16 = 0 := by omega
    rw [outs_row_acc m c t h0, outs_col_acc m c t h1]
    simp only [before_row m c t h0, before_col m c t h1]
    iintro ⟨HΦ, Ho, ⟨%d0, H0⟩, ⟨%d1, H1⟩, ⟨%d2, H2⟩, ⟨%d3, H3⟩⟩
    iapply ((runB c (grid0.coords t) _ _ _ _ _ _ _ _ (fun h => h0 ((startsRow_iff t).mp h)) (fun h => h1 ((startsBatch_iff t).mp h)) (iblk m c 0 t) (iblk m c 1 t) _ _).2 Set.univ _)
    isplitl [H0]; · iexact H0
    isplitl [H1]; · iexact H1
    isplitl [H2]; · iexact H2
    isplitl [H3]; · iexact H3
    iintro ⟨H0, H1, ⟨%e2, H2⟩, H3⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact rowB_read c _ _ _ _ _ _ _ _ _ _ _ _ _ _ _ _
    unfold owns; iexists _; isplitr
    swap; · iexact H3
    ipureintro; exact colB_read c _ _ _ _ _ _ _ _ _ _ _ _ _ _ _

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the program terminates, and in every final state each array of the pipeline holds
    what the proof data computes and every other buffer what the host lines after the region make of that. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs and its two argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Body

end
-- ==== Proof.KIShared.lean ====
/-
  What the three runs of the kernel body share. The grid is (batch, row tile, column tile) = (8, 4, 4), walked with the
  column tile fastest, so point t is batch t / 16, row tile (t / 4) % 4, column tile t % 4. The body has two
  conditionals: the first resets the running row minimum when a row tile starts (column tile 0, t ≡ 0 mod 4), the
  second resets the running column minimum when a batch starts (row and column tile 0, t ≡ 0 mod 16).
-/
import proofs.«180144_j377957122587_2_alg».proof.Proof.Gen.KernelIdeal.Frame
import proofs.«180144_j377957122587_2_alg».proof.Proof.Gen.KernelIdeal.Skeleton

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first conditional's test as the body computes it from the coordinates: the column tile is 0. -/
abbrev startsRow (i : grid0.Coords) : Prop :=
  (Scalar.cmpi .ne (Scalar.extui (Scalar.cmpi .eq (BitVec.ofNat 32 (i 2).val) 0#32)) 0#32) = 1#1
/-- It holds exactly at the points ≡ 0 (mod 4). -/
theorem startsRow_iff : ∀ t : Fin cfg0.N, startsRow (grid0.coords t) ↔ t.val % 4 = 0 :=
  (by decide +kernel : ∀ t : Fin grid0.N, startsRow (grid0.coords t) ↔ t.val % 4 = 0)

/-- The second conditional's test: row tile and column tile are both 0. -/
abbrev startsBatch (i : grid0.Coords) : Prop :=
  (Scalar.cmpi .ne (Scalar.extui (Scalar.andi (Scalar.cmpi .eq (BitVec.ofNat 32 (i 1).val) 0#32) (Scalar.cmpi .eq (BitVec.ofNat 32 (i 2).val) 0#32))) 0#32) = 1#1
/-- It holds exactly at the points ≡ 0 (mod 16). -/
theorem startsBatch_iff : ∀ t : Fin cfg0.N, startsBatch (grid0.coords t) ↔ t.val % 16 = 0 :=
  (by decide +kernel : ∀ t : Fin grid0.N, startsBatch (grid0.coords t) ↔ t.val % 16 = 0)

/-- Each window's current staging memref at point t, spelled as the pipeline passes it to the body, and its wholeness. -/
abbrev mx (t : Fin cfg0.N) : Memref sig .tc .vmem S1x1024x3 .f32 := win0_0.stage (cfg0.slots t 0)
abbrev hmx (t : Fin cfg0.N) : (mx t).IsWhole := hstage0_0 ((cfg0.slots t 0).cast nbuf0_0)
abbrev my (t : Fin cfg0.N) : Memref sig .tc .vmem S1x3x1024 .f32 := win0_1.stage (cfg0.slots t 1)
abbrev hmy (t : Fin cfg0.N) : (my t).IsWhole := hstage0_1 ((cfg0.slots t 1).cast nbuf0_1)
abbrev mrow (t : Fin cfg0.N) : Memref sig .tc .vmem S1x1x1024 .f32 := win0_2.stage (cfg0.slots t 2)
abbrev hmrow (t : Fin cfg0.N) : (mrow t).IsWhole := hstage0_2 ((cfg0.slots t 2).cast nbuf0_2)
abbrev mcol (t : Fin cfg0.N) : Memref sig .tc .vmem S1x1x4096 .f32 := win0_3.stage (cfg0.slots t 3)
abbrev hmcol (t : Fin cfg0.N) : (mcol t).IsWhole := hstage0_3 ((cfg0.slots t 3).cast nbuf0_3)

end Cert.KernelIdeal.Body

end
-- ==== Proof.KIRunA.lean ====
/-
  The body at a point that starts a batch (both conditionals taken): both running minima are reset to +∞ over their
  whole buffers before anything of them is used, so whatever the two output buffers held is irrelevant.
-/
import proofs.«180144_j377957122587_2_alg».proof.Proof.KIShared

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The stores the body makes into the row-minimum buffer and into the column-minimum buffer at a point that starts a
    batch, last first, WITH the run: on whole staging memrefs, the inputs at their blocks and the outputs at anything,
    the body runs to a continuation that is handed the inputs as they were and each output with those stores made. -/
noncomputable def runA (c : Dev nD) (i : grid0.Coords) (arg3 : Memref sig .tc .vmem S1x1024x3 .f32) (harg3 : arg3.IsWhole) (arg4 : Memref sig .tc .vmem S1x3x1024 .f32) (harg4 : arg4.IsWhole) (arg5 : Memref sig .tc .vmem S1x1x1024 .f32) (harg5 : arg5.IsWhole) (arg6 : Memref sig .tc .vmem S1x1x4096 .f32) (harg6 : arg6.IsWhole) (hc0 : startsRow i) (hc1 : startsBatch i)
    (x0 : Vec F S1x1024x3 .f32) (x1 : Vec F S1x3x1024 .f32) :
    { L : List (View.Piece (Elt F) S1x1x1024 .f32) × List (View.Piece (Elt F) S1x1x4096 .f32) //
      ∀ (E : Set ℕ) (K : PUnit → sProp 𝕄),
        iprop(owns (c : Thread nD τ) arg3 fullShare x0 ∗ owns (c : Thread nD τ) arg4 fullShare x1
            ∗ (∃ d, owns (c : Thread nD τ) arg5 fullShare d) ∗ (∃ d, owns (c : Thread nD τ) arg6 fullShare d)
            ∗ (iprop(owns (c : Thread nD τ) arg3 fullShare x0 ∗ owns (c : Thread nD τ) arg4 fullShare x1
                ∗ (∃ f, arg5.view.loc (c : Thread nD τ) ↦[arg5.view.set]{fullShare} arg5.view.writes (Elt F) f L.1)
                ∗ (∃ f, arg6.view.loc (c : Thread nD τ) ↦[arg6.view.set]{fullShare} arg6.view.writes (Elt F) f L.2)) -∗ K ⟨⟩))
          ⊢ wp frame (wpE (defs₀ (F := F)) Variants.none c none) E (cc0__chamfer_kernel i arg3 harg3 arg4 harg4 arg5 harg5 arg6 harg6) K } := by
  refine ⟨⟨?_, ?_⟩, fun E K => ?run⟩
  case run =>
    simp only [cc0__chamfer_kernel_eq_skeleton]; unfold cc0__chamfer_kernel_skel
    simp only [k0_part1_eq_skeleton]
    unfold owns
    iintro ⟨⟨%f0, %hf0, H0⟩, ⟨%f1, %hf1, H1⟩, ⟨%d2, %f2, -, H2⟩, ⟨%d3, %f3, -, H3⟩, Hk⟩
    obtain rfl := harg3.eq_unread hf0; obtain rfl := harg4.eq_unread hf1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; iexact H2
    iexists _; iexact H3

end Cert.KernelIdeal.Body

end
-- ==== Proof.KIRunC.lean ====
/-
  The body at a point that starts a row tile but not a batch (first conditional taken, second not): the running row
  minimum is reset over its whole buffer; the running column minimum is read and updated on the current column
  tile's 1024 lanes only, so the rest of its buffer keeps what the point before left.
-/
import proofs.«180144_j377957122587_2_alg».proof.Proof.KIRunA

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The stores into the two output buffers at such a point, last first, WITH the run: the inputs at their blocks, the
    row-minimum buffer at anything, the column-minimum buffer at its running contents `xc`; the continuation is handed
    the row-minimum buffer with its stores made over something and the column-minimum buffer with its stores made over
    `xc`. -/
noncomputable def runC (c : Dev nD) (i : grid0.Coords) (arg3 : Memref sig .tc .vmem S1x1024x3 .f32) (harg3 : arg3.IsWhole) (arg4 : Memref sig .tc .vmem S1x3x1024 .f32) (harg4 : arg4.IsWhole) (arg5 : Memref sig .tc .vmem S1x1x1024 .f32) (harg5 : arg5.IsWhole) (arg6 : Memref sig .tc .vmem S1x1x4096 .f32) (harg6 : arg6.IsWhole) (hc0 : startsRow i) (hc1 : ¬startsBatch i)
    (x0 : Vec F S1x1024x3 .f32) (x1 : Vec F S1x3x1024 .f32) (xc : Vec F S1x1x4096 .f32) :
    { L : List (View.Piece (Elt F) S1x1x1024 .f32) × List (View.Piece (Elt F) S1x1x4096 .f32) //
      ∀ (E : Set ℕ) (K : PUnit → sProp 𝕄),
        iprop(owns (c : Thread nD τ) arg3 fullShare x0 ∗ owns (c : Thread nD τ) arg4 fullShare x1
            ∗ (∃ d, owns (c : Thread nD τ) arg5 fullShare d) ∗ owns (c : Thread nD τ) arg6 fullShare xc
            ∗ (iprop(owns (c : Thread nD τ) arg3 fullShare x0 ∗ owns (c : Thread nD τ) arg4 fullShare x1
                ∗ (∃ f, arg5.view.loc (c : Thread nD τ) ↦[arg5.view.set]{fullShare} arg5.view.writes (Elt F) f L.1)
                ∗ (arg6.view.loc (c : Thread nD τ) ↦[arg6.view.set]{fullShare} arg6.view.writes (Elt F) (harg6.unread xc) L.2)) -∗ K ⟨⟩))
          ⊢ wp frame (wpE (defs₀ (F := F)) Variants.none c none) E (cc0__chamfer_kernel i arg3 harg3 arg4 harg4 arg5 harg5 arg6 harg6) K } := by
  refine ⟨⟨?_, ?_⟩, fun E K => ?run⟩
  case run =>
    simp only [cc0__chamfer_kernel_eq_skeleton]; unfold cc0__chamfer_kernel_skel
    simp only [k0_part1_eq_skeleton]
    unfold owns
    iintro ⟨⟨%f0, %hf0, H0⟩, ⟨%f1, %hf1, H1⟩, ⟨%d2, %f2, -, H2⟩, ⟨%f3, %hf3, H3⟩, Hk⟩
    obtain rfl := harg3.eq_unread hf0; obtain rfl := harg4.eq_unread hf1; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; iexact H2
    iexact H3

end Cert.KernelIdeal.Body

end
-- ==== Proof.KIRunB.lean ====
/-
  The body at a point inside a row tile (neither conditional taken): both running minima are read and updated — the
  row minimum over its whole buffer, the column minimum on the current column tile's 1024 lanes.
-/
import proofs.«180144_j377957122587_2_alg».proof.Proof.KIRunC

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The stores into the two output buffers at such a point, last first, WITH the run: the inputs at their blocks, the
    row-minimum buffer at its running contents `xr`, the column-minimum buffer at its running contents `xc`. -/
noncomputable def runB (c : Dev nD) (i : grid0.Coords) (arg3 : Memref sig .tc .vmem S1x1024x3 .f32) (harg3 : arg3.IsWhole) (arg4 : Memref sig .tc .vmem S1x3x1024 .f32) (harg4 : arg4.IsWhole) (arg5 : Memref sig .tc .vmem S1x1x1024 .f32) (harg5 : arg5.IsWhole) (arg6 : Memref sig .tc .vmem S1x1x4096 .f32) (harg6 : arg6.IsWhole) (hc0 : ¬startsRow i) (hc1 : ¬startsBatch i)
    (x0 : Vec F S1x1024x3 .f32) (x1 : Vec F S1x3x1024 .f32) (xr : Vec F S1x1x1024 .f32) (xc : Vec F S1x1x4096 .f32) :
    { L : List (View.Piece (Elt F) S1x1x1024 .f32) × List (View.Piece (Elt F) S1x1x4096 .f32) //
      ∀ (E : Set ℕ) (K : PUnit → sProp 𝕄),
        iprop(owns (c : Thread nD τ) arg3 fullShare x0 ∗ owns (c : Thread nD τ) arg4 fullShare x1
            ∗ owns (c : Thread nD τ) arg5 fullShare xr ∗ owns (c : Thread nD τ) arg6 fullShare xc
            ∗ (iprop(owns (c : Thread nD τ) arg3 fullShare x0 ∗ owns (c : Thread nD τ) arg4 fullShare x1
                ∗ (∃ f, arg5.view.loc (c : Thread nD τ) ↦[arg5.view.set]{fullShare} arg5.view.writes (Elt F) f L.1)
                ∗ (arg6.view.loc (c : Thread nD τ) ↦[arg6.view.set]{fullShare} arg6.view.writes (Elt F) (harg6.unread xc) L.2)) -∗ K ⟨⟩))
          ⊢ wp frame (wpE (defs₀ (F := F)) Variants.none c none) E (cc0__chamfer_kernel i arg3 harg3 arg4 harg4 arg5 harg5 arg6 harg6) K } := by
  refine ⟨⟨?_, ?_⟩, fun E K => ?run⟩
  case run =>
    simp only [cc0__chamfer_kernel_eq_skeleton]; unfold cc0__chamfer_kernel_skel
    simp only [k0_part1_eq_skeleton]
    unfold owns
    iintro ⟨⟨%f0, %hf0, H0⟩, ⟨%f1, %hf1, H1⟩, ⟨%f2, %hf2, H2⟩, ⟨%f3, %hf3, H3⟩, Hk⟩
    obtain rfl := harg3.eq_unread hf0; obtain rfl := harg4.eq_unread hf1
    obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; iexact H2
    iexact H3

end Cert.KernelIdeal.Body

end
-- ==== Proof.KIOuts.lean ====
/-
  What each of the three runs leaves in the two output buffers, as functions of what the buffers held and of the input
  blocks — no memref, no list of stores left. The row-minimum buffer ends at the body's row update of what it started
  from (+∞ where the run reset it); the column-minimum buffer ends as it started except on the current column tile's
  1024 lanes, which hold the body's column update of those lanes.
-/
import proofs.«180144_j377957122587_2_alg».proof.Proof.KIRunB
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem zeros3 : (![0, 0, 0] : Fin 3 → Nat) = fun _ => 0 := by
  funext a; fin_cases a <;> rfl

/-- A buffer after a list of stores, read one store at a time: the last store's payload on its rectangle, the earlier
    stores' result off it. -/
theorem read_writes_cons_overlay {sig' : RefSig} {κ' : Kind} {sp' : Space} {s : Shape} {e : EltTy}
    (v : View sig' κ' sp' s e) (f : v.ty.Contents (Elt F)) (p : View.Piece (Elt F) s e) (L : List (View.Piece (Elt F) s e)) :
    v.read (Elt F) (v.writes (Elt F) f (p :: L)) = p.1.overlay (v.read (Elt F) (v.writes (Elt F) f L)) p.2 := by
  funext y
  by_cases hy : y ∈ p.1.set
  · obtain ⟨r, w⟩ := p
    obtain ⟨x, rfl⟩ : ∃ x, r.emb x = y := r.exists_idx_of_mem hy
    rw [View.read_writes_cons_emb, Rect.overlay_emb]
  · have hy' : y ∉ Finset.univ.map p.1.emb := by rwa [Rect.map_emb_univ]
    rw [View.writes_cons, View.read_slice_write_of_not_mem p.1 _ _ _ hy', Rect.overlay_of_not_mem _ _ _ hy]

/-- The current column tile's lanes inside the column-minimum buffer: 1024 lanes from 1024 × the column tile. -/
abbrev colRect (i : grid0.Coords) : Rect S1x1x4096 :=
  Rect.unit (s := S1x1x4096) (k0_off1 i) S1x1x1024.size (k0_off1_inb i)

/-- The column-minimum buffer after the body: as before, except that the current column tile's lanes hold the body's
    column update (the lane-wise minimum of what they held and the tile's column minima). -/
def colUpd (i : grid0.Coords) (x0 : Vec F S1x1024x3 .f32) (x1 : Vec F S1x3x1024 .f32) (xc : Vec F S1x1x4096 .f32) :
    Vec F S1x1x4096 .f32 :=
  (colRect i).overlay xc (k0_pay1 (k0_pay4 x0 x1) (View.ld xc (colRect i)))

section
variable (c : Dev nD) (i : grid0.Coords) (arg3 : Memref sig .tc .vmem S1x1024x3 .f32) (harg3 : arg3.IsWhole) (arg4 : Memref sig .tc .vmem S1x3x1024 .f32) (harg4 : arg4.IsWhole) (arg5 : Memref sig .tc .vmem S1x1x1024 .f32) (harg5 : arg5.IsWhole) (arg6 : Memref sig .tc .vmem S1x1x4096 .f32) (harg6 : arg6.IsWhole) (x0 : Vec F S1x1024x3 .f32) (x1 : Vec F S1x3x1024 .f32)

/-- A point that starts a batch leaves the row update of +∞ in the row-minimum buffer, -/
theorem rowA_read (hc0 : startsRow i) (hc1 : startsBatch i) (f : arg5.view.ty.Contents (Elt F)) :
    arg5.view.read (Elt F) (arg5.view.writes (Elt F) f (runA c i arg3 harg3 arg4 harg4 arg5 harg5 arg6 harg6 hc0 hc1 x0 x1).1.1)
      = k0_pay5 x0 x1 (k0_pay2 (F := F)) := by
  unfold runA; dsimp only; sl_unfold_run_names
  rw [View.read_writes_eq_canon _ _ _ (fun y => ⟨_, List.mem_cons_self, View.mem_set_unit_zero zeros3 inb_S1x1x1024_S1x1x1024_0_0_0 y⟩),
    View.canon_cons_unit_zero zeros3]
  simp only [View.readAt_eq_ld, harg3.read_unread, harg4.read_unread, View.ld_unit_zero (S := S1x1024x3) zeros3, View.ld_unit_zero (S := S1x3x1024) zeros3, View.ld_unit_zero (S := S1x1x1024) zeros3, View.ld_unit_zero (S := S1x1x4096) zeros3, View.readCov_unit_zero (S := S1x1x1024) _ zeros3]

/-- and the column update of +∞ in the column-minimum buffer. -/
theorem colA_read (hc0 : startsRow i) (hc1 : startsBatch i) (f : arg6.view.ty.Contents (Elt F)) :
    arg6.view.read (Elt F) (arg6.view.writes (Elt F) f (runA c i arg3 harg3 arg4 harg4 arg5 harg5 arg6 harg6 hc0 hc1 x0 x1).1.2)
      = colUpd i x0 x1 (k0_pay3 (F := F)) := by
  unfold runA; dsimp only; sl_unfold_run_names
  rw [read_writes_cons_overlay,
    View.read_writes_eq_canon _ _ _ (fun y => ⟨_, List.mem_singleton_self _, View.mem_set_unit_zero zeros3 inb_S1x1x4096_S1x1x4096_0_0_0 y⟩),
    View.canon_unit_zero zeros3]
  unfold colUpd
  simp only [View.readAt_eq_ld, harg3.read_unread, harg4.read_unread, View.ld_unit_zero (S := S1x1024x3) zeros3, View.ld_unit_zero (S := S1x3x1024) zeros3, View.ld_unit_zero (S := S1x1x1024) zeros3, View.ld_unit_zero (S := S1x1x4096) zeros3,
    View.read_writes_junk_eq_canon, View.canon_unit_zero (S := S1x1x4096) zeros3]

/-- A point that starts a row tile but not a batch leaves the row update of +∞ in the row-minimum buffer, -/
theorem rowC_read (hc0 : startsRow i) (hc1 : ¬startsBatch i) (xc : Vec F S1x1x4096 .f32) (f : arg5.view.ty.Contents (Elt F)) :
    arg5.view.read (Elt F) (arg5.view.writes (Elt F) f (runC c i arg3 harg3 arg4 harg4 arg5 harg5 arg6 harg6 hc0 hc1 x0 x1 xc).1.1)
      = k0_pay5 x0 x1 (k0_pay2 (F := F)) := by
  unfold runC; dsimp only; sl_unfold_run_names
  rw [View.read_writes_eq_canon _ _ _ (fun y => ⟨_, List.mem_cons_self, View.mem_set_unit_zero zeros3 inb_S1x1x1024_S1x1x1024_0_0_0 y⟩),
    View.canon_cons_unit_zero zeros3]
  simp only [View.readAt_eq_ld, harg3.read_unread, harg4.read_unread, View.ld_unit_zero (S := S1x1024x3) zeros3, View.ld_unit_zero (S := S1x3x1024) zeros3, View.ld_unit_zero (S := S1x1x1024) zeros3, View.ld_unit_zero (S := S1x1x4096) zeros3, View.readCov_unit_zero (S := S1x1x1024) _ zeros3]

/-- and the column update of the running contents in the column-minimum buffer. -/
theorem colC_read (hc0 : startsRow i) (hc1 : ¬startsBatch i) (xc : Vec F S1x1x4096 .f32) :
    arg6.view.read (Elt F) (arg6.view.writes (Elt F) (harg6.unread xc) (runC c i arg3 harg3 arg4 harg4 arg5 harg5 arg6 harg6 hc0 hc1 x0 x1 xc).1.2)
      = colUpd i x0 x1 xc := by
  unfold runC; dsimp only; sl_unfold_run_names
  rw [read_writes_cons_overlay, View.writes_nil, harg6.read_unread]
  unfold colUpd
  simp only [View.readAt_eq_ld, harg3.read_unread, harg4.read_unread, harg6.read_unread, View.ld_unit_zero (S := S1x1024x3) zeros3, View.ld_unit_zero (S := S1x3x1024) zeros3, View.ld_unit_zero (S := S1x1x1024) zeros3, View.ld_unit_zero (S := S1x1x4096) zeros3]

/-- A point inside a row tile leaves the row update of the running contents in the row-minimum buffer, -/
theorem rowB_read (hc0 : ¬startsRow i) (hc1 : ¬startsBatch i) (xr : Vec F S1x1x1024 .f32) (xc : Vec F S1x1x4096 .f32)
    (f : arg5.view.ty.Contents (Elt F)) :
    arg5.view.read (Elt F) (arg5.view.writes (Elt F) f (runB c i arg3 harg3 arg4 harg4 arg5 harg5 arg6 harg6 hc0 hc1 x0 x1 xr xc).1.1)
      = k0_pay5 x0 x1 xr := by
  unfold runB; dsimp only; sl_unfold_run_names
  rw [View.read_writes_eq_canon _ _ _ (fun y => ⟨_, List.mem_singleton_self _, View.mem_set_unit_zero zeros3 inb_S1x1x1024_S1x1x1024_0_0_0 y⟩),
    View.canon_unit_zero zeros3]
  simp only [View.readAt_eq_ld, harg3.read_unread, harg4.read_unread, harg5.read_unread, View.ld_unit_zero (S := S1x1024x3) zeros3, View.ld_unit_zero (S := S1x3x1024) zeros3, View.ld_unit_zero (S := S1x1x1024) zeros3, View.ld_unit_zero (S := S1x1x4096) zeros3]

/-- and the column update of the running contents in the column-minimum buffer. -/
theorem colB_read (hc0 : ¬startsRow i) (hc1 : ¬startsBatch i) (xr : Vec F S1x1x1024 .f32) (xc : Vec F S1x1x4096 .f32) :
    arg6.view.read (Elt F) (arg6.view.writes (Elt F) (harg6.unread xc) (runB c i arg3 harg3 arg4 harg4 arg5 harg5 arg6 harg6 hc0 hc1 x0 x1 xr xc).1.2)
      = colUpd i x0 x1 xc := by
  unfold runB; dsimp only; sl_unfold_run_names
  rw [read_writes_cons_overlay, View.writes_nil, harg6.read_unread]
  unfold colUpd
  simp only [View.readAt_eq_ld, harg3.read_unread, harg4.read_unread, harg6.read_unread, View.ld_unit_zero (S := S1x1024x3) zeros3, View.ld_unit_zero (S := S1x3x1024) zeros3, View.ld_unit_zero (S := S1x1x1024) zeros3, View.ld_unit_zero (S := S1x1x4096) zeros3]

end

end Cert.KernelIdeal.Body

end
-- ==== Proof.KIFrame.lean ====
/-
  The frame run. What the two output buffers hold after each grid point is a recursion on the point: the row minimum
  restarts from +∞ at the points ≡ 0 (mod 4) and otherwise continues from the point before; the column minimum
  restarts at the points ≡ 0 (mod 16). With that as the pipeline's proof data the body meets its obligation at every
  point (one of three runs applies), and the launch theorem gives the run of the whole program: every array of the
  pipeline ends at what the proof data says, the host lines after the region applied on top.
-/
import proofs.«180144_j377957122587_2_alg».proof.Proof.KIOuts

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- One point's effect on the pair (row-minimum buffer, column-minimum buffer): the body's row update of +∞ or of the
    running row contents, and its column update of +∞ or of the running column contents, on the point's input blocks. -/
def step (c : Dev nD) (t : Fin cfg0.N) (prev : Vec F S1x1x1024 .f32 × Vec F S1x1x4096 .f32) :
    Vec F S1x1x1024 .f32 × Vec F S1x1x4096 .f32 :=
  (k0_pay5 (iblk m c 0 t) (iblk m c 1 t) (if t.val % 4 = 0 then k0_pay2 (F := F) else prev.1),
   colUpd (grid0.coords t) (iblk m c 0 t) (iblk m c 1 t) (if t.val % 16 = 0 then k0_pay3 (F := F) else prev.2))

/-- What the two output buffers hold after the body at position `n`. -/
def outs (c : Dev nD) : (n : ℕ) → n < cfg0.N → Vec F S1x1x1024 .f32 × Vec F S1x1x4096 .f32
  | 0, h => step m c ⟨0, h⟩ (k0_pay2 (F := F), k0_pay3 (F := F))
  | n + 1, h => step m c ⟨n + 1, h⟩ (outs c n (Nat.lt_of_succ_lt h))

/-- After the first point, a point's contents are one step from the point before's. -/
theorem outs_pred (c : Dev nD) (t : Fin cfg0.N) (ht : t.val ≠ 0) :
    outs m c t.val t.isLt = step m c t (outs m c (t.val - 1) (Nat.lt_of_le_of_lt (Nat.sub_le _ _) t.isLt)) := by
  obtain ⟨n, hn⟩ := t
  cases n with
  | zero => exact absurd rfl ht
  | succ n => rfl

theorem outs_row_reset (c : Dev nD) (t : Fin cfg0.N) (h0 : t.val % 4 = 0) :
    (outs m c t.val t.isLt).1 = k0_pay5 (iblk m c 0 t) (iblk m c 1 t) (k0_pay2 (F := F)) := by
  obtain ⟨n, hn⟩ := t
  cases n with
  | zero => show (step m c ⟨0, hn⟩ _).1 = _; unfold step; dsimp only; rw [if_pos h0]
  | succ n => show (step m c ⟨n + 1, hn⟩ _).1 = _; unfold step; dsimp only; rw [if_pos h0]

theorem outs_col_reset (c : Dev nD) (t : Fin cfg0.N) (h1 : t.val % 16 = 0) :
    (outs m c t.val t.isLt).2 = colUpd (grid0.coords t) (iblk m c 0 t) (iblk m c 1 t) (k0_pay3 (F := F)) := by
  obtain ⟨n, hn⟩ := t
  cases n with
  | zero => show (step m c ⟨0, hn⟩ _).2 = _; unfold step; dsimp only; rw [if_pos h1]
  | succ n => show (step m c ⟨n + 1, hn⟩ _).2 = _; unfold step; dsimp only; rw [if_pos h1]

theorem outs_row_acc (c : Dev nD) (t : Fin cfg0.N) (h0 : ¬t.val % 4 = 0) :
    (outs m c t.val t.isLt).1 = k0_pay5 (iblk m c 0 t) (iblk m c 1 t)
      (outs m c (t.val - 1) (Nat.lt_of_le_of_lt (Nat.sub_le _ _) t.isLt)).1 := by
  rw [outs_pred m c t (fun h => h0 (by rw [h]))]
  unfold step; dsimp only; rw [if_neg h0]

theorem outs_col_acc (c : Dev nD) (t : Fin cfg0.N) (h1 : ¬t.val % 16 = 0) :
    (outs m c t.val t.isLt).2 = colUpd (grid0.coords t) (iblk m c 0 t) (iblk m c 1 t)
      (outs m c (t.val - 1) (Nat.lt_of_le_of_lt (Nat.sub_le _ _) t.isLt)).2 := by
  rw [outs_pred m c t (fun h => h1 (by rw [h]))]
  unfold step; dsimp only; rw [if_neg h1]

/-! ## The pipeline's proof data -/

/-- The arrays as the region finds them; after the body each input's buffer at its block and the outputs' at `outs`;
    the invariant the scoped rest and the generator register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outs m c t.val t.isLt).1
    | ⟨3, _⟩ => (outs m c t.val t.isLt).2
  Φ _ := Pipeline.ΦA spec0 c
  q _ := fullShare
  owed _ := 0

theorem A_eq (c : Dev nD) (w : Fin cfg0.W) : (dats m 0 c).A w = V m c (Pipeline.arrRef spec0 w) := by
  dsimp only [dats]

theorem after_x (c : Dev nD) (t : Fin cfg0.N) : (dats m 0 c).after 0 t = iblk m c 0 t := by dsimp only [dats]
theorem after_y (c : Dev nD) (t : Fin cfg0.N) : (dats m 0 c).after 1 t = iblk m c 1 t := by dsimp only [dats]
theorem after_row (c : Dev nD) (t : Fin cfg0.N) : (dats m 0 c).after 2 t = (outs m c t.val t.isLt).1 := by dsimp only [dats]
theorem after_col (c : Dev nD) (t : Fin cfg0.N) : (dats m 0 c).after 3 t = (outs m c t.val t.isLt).2 := by dsimp only [dats]

/-- Each input's current staging buffer holds its block at every point, fetched there or not. -/
theorem before_x (c : Dev nD) (t : Fin cfg0.N) (d) : (dats m 0 c).before 0 t d = iblk m c 0 t :=
  before0_0_of m (dats m 0 c) (A_eq m c 0) (after_x m c) t d
theorem before_y (c : Dev nD) (t : Fin cfg0.N) (d) : (dats m 0 c).before 1 t d = iblk m c 1 t :=
  before0_1_of m (dats m 0 c) (A_eq m c 1) (after_y m c) t d

/-- Inside a row tile the row-minimum buffer holds what the point before left: it is written back only after the
    row tile's last point. -/
theorem before_row (c : Dev nD) (t : Fin cfg0.N) (h0 : ¬t.val % 4 = 0) (d) :
    (dats m 0 c).before 2 t d = (outs m c (t.val - 1) (Nat.lt_of_le_of_lt (Nat.sub_le _ _) t.isLt)).1 := by
  have hN : t.val < 128 := lt_of_lt_of_eq t.isLt (show cfg0.N = 128 from N_0)
  rw [Dat.before_out_kept _ 2 rfl t (by omega) (Bool.eq_false_iff.mpr fun h => by have := (flush0_2 _).mp h; dsimp only at this; omega)
    (fun _ => rfl) (fun _ _ => rfl)]
  dsimp only [dats]

/-- Inside a batch the column-minimum buffer holds what the point before left: it is written back only after the
    batch's last point. -/
theorem before_col (c : Dev nD) (t : Fin cfg0.N) (h1 : ¬t.val % 16 = 0) (d) :
    (dats m 0 c).before 3 t d = (outs m c (t.val - 1) (Nat.lt_of_le_of_lt (Nat.sub_le _ _) t.isLt)).2 := by
  have hN : t.val < 128 := lt_of_lt_of_eq t.isLt (show cfg0.N = 128 from N_0)
  rw [Dat.before_out_kept _ 3 rfl t (by omega) (Bool.eq_false_iff.mpr fun h => by have := (flush0_3 _).mp h; dsimp only at this; omega)
    (fun _ => rfl) (fun _ _ => rfl)]
  dsimp only [dats]

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (mx t) fullShare ((dats m 0 c).before 0 t d))
    ∗ (∃ d, owns (c : Thread nD τ) (my t) fullShare ((dats m 0 c).before 1 t d))
    ∗ (∃ d, owns (c : Thread nD τ) (mrow t) fullShare ((dats m 0 c).before 2 t d))
    ∗ (∃ d, owns (c : Thread nD τ) (mcol t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (mx t) fullShare ((dats m 0 c).after 0 t)
    ∗ owns (c : Thread nD τ) (my t) fullShare ((dats m 0 c).after 1 t)
    ∗ owns (c : Thread nD τ) (mrow t) fullShare ((dats m 0 c).after 2 t)
    ∗ owns (c : Thread nD τ) (mcol t) fullShare ((dats m 0 c).after 3 t))

set_option maxHeartbeats 1600000 in
/-- The body at any point: the residues of the point say which run applies; an output a run continues holds what the
    point before left; the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_x, before_y]
  rw [show (dats m 0 c).Φ t.succ = (dats m 0 c).Φ t.castSucc from rfl,
    show (dats m 0 c).owesAt () t.succ = (dats m 0 c).owesAt () t.castSucc from rfl,
    after_x, after_y, after_row, after_col]
  have hN : t.val < 128 := lt_of_lt_of_eq t.isLt (show cfg0.N = 128 from N_0)
  by_cases h0 : t.val % 4 = 0
  · by_cases h1 : t.val % 16 = 0
    · rw [outs_row_reset m c t h0, outs_col_reset m c t h1]
      iintro ⟨HΦ, Ho, ⟨%d0, H0⟩, ⟨%d1, H1⟩, ⟨%d2, H2⟩, ⟨%d3, H3⟩⟩
      iapply ((runA c (grid0.coords t) _ _ _ _ _ _ _ _ ((startsRow_iff t).mpr h0) ((startsBatch_iff t).mpr h1) (iblk m c 0 t) (iblk m c 1 t)).2 Set.univ _)
      isplitl [H0]; · iexact H0
      isplitl [H1]; · iexact H1
      isplitl [H2]; · iexists _; iexact H2
      isplitl [H3]; · iexists _; iexact H3
      iintro ⟨H0, H1, ⟨%e2, H2⟩, ⟨%e3, H3⟩⟩
      isplitl [HΦ]; · iexact HΦ
      isplitl [Ho]; · iexact Ho
      isplitl [H0]; · iexact H0
      isplitl [H1]; · iexact H1
      isplitl [H2]
      · unfold owns; iexists _; isplitr
        swap; · iexact H2
        ipureintro; exact rowA_read c _ _ _ _ _ _ _ _ _ _ _ _ _ _
      unfold owns; iexists _; isplitr
      swap; · iexact H3
      ipureintro; exact colA_read c _ _ _ _ _ _ _ _ _ _ _ _ _ _
    · rw [outs_row_reset m c t h0, outs_col_acc m c t h1]
      simp only [before_col m c t h1]
      iintro ⟨HΦ, Ho, ⟨%d0, H0⟩, ⟨%d1, H1⟩, ⟨%d2, H2⟩, ⟨%d3, H3⟩⟩
      iapply ((runC c (grid0.coords t) _ _ _ _ _ _ _ _ ((startsRow_iff t).mpr h0) (fun h => h1 ((startsBatch_iff t).mp h)) (iblk m c 0 t) (iblk m c 1 t) _).2 Set.univ _)
      isplitl [H0]; · iexact H0
      isplitl [H1]; · iexact H1
      isplitl [H2]; · iexists _; iexact H2
      isplitl [H3]; · iexact H3
      iintro ⟨H0, H1, ⟨%e2, H2⟩, H3⟩
      isplitl [HΦ]; · iexact HΦ
      isplitl [Ho]; · iexact Ho
      isplitl [H0]; · iexact H0
      isplitl [H1]; · iexact H1
      isplitl [H2]
      · unfold owns; iexists _; isplitr
        swap; · iexact H2
        ipureintro; exact rowC_read c _ _ _ _ _ _ _ _ _ _ _ _ _ _ _
      unfold owns; iexists _; isplitr
      swap; · iexact H3
      ipureintro; exact colC_read c _ _ _ _ _ _ _ _ _ _ _ _ _ _
  · have h1 : ¬t.val % 16 = 0 := by omega
    rw [outs_row_acc m c t h0, outs_col_acc m c t h1]
    simp only [before_row m c t h0, before_col m c t h1]
    iintro ⟨HΦ, Ho, ⟨%d0, H0⟩, ⟨%d1, H1⟩, ⟨%d2, H2⟩, ⟨%d3, H3⟩⟩
    iapply ((runB c (grid0.coords t) _ _ _ _ _ _ _ _ (fun h => h0 ((startsRow_iff t).mp h)) (fun h => h1 ((startsBatch_iff t).mp h)) (iblk m c 0 t) (iblk m c 1 t) _ _).2 Set.univ _)
    isplitl [H0]; · iexact H0
    isplitl [H1]; · iexact H1
    isplitl [H2]; · iexact H2
    isplitl [H3]; · iexact H3
    iintro ⟨H0, H1, ⟨%e2, H2⟩, H3⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact rowB_read c _ _ _ _ _ _ _ _ _ _ _ _ _ _ _ _
    unfold owns; iexists _; isplitr
    swap; · iexact H3
    ipureintro; exact colB_read c _ _ _ _ _ _ _ _ _ _ _ _ _ _ _

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the program terminates, and in every final state each array of the pipeline holds
    what the proof data computes and every other buffer what the host lines after the region make of that. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs and its two argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Body

end
-- ==== Proof.ChamferSpec.lean ====
/-
  The mathematics of the symmetric nearest-neighbour (Chamfer) distance, stated over the extended reals with no
  program in sight: the squared distance of two points of ℝ³ written as |a|² + |b|² − 2⟨a, b⟩, and the two facts about
  minima the comparison rests on — a value is determined by the set of its lower bounds, and the lower bounds of a
  running minimum started at +∞ are the common lower bounds of everything folded in.
-/
import Idealize.ShloMosaic.PureOps.Ideal
import Idealize.ShloMosaic.Lib.ValueIdx

noncomputable section

namespace Chamfer

open Idealize.ShloMosaic

/-- |a|² + |b|² − `two`·⟨a, b⟩ for two points given by their three coordinates (`two` is the programs' literal 2). -/
def sqd (two : EReal) (a b : Fin 3 → EReal) : EReal :=
  ((∑ k, a k * a k) + (∑ k, b k * b k)) - two * (∑ k, a k * b k)

/-- A lower bound of a minimum folded from +∞ over a finite family is a lower bound of every member. -/
theorem le_fold_min_top_iff {n : ℕ} (a : EReal) (f : Fin n → EReal) :
    a ≤ (Finset.univ : Finset (Fin n)).fold min ⊤ f ↔ ∀ i, a ≤ f i := by
  rw [Finset.le_fold_min]
  exact ⟨fun h i => h.2 i (Finset.mem_univ i), fun h => ⟨le_top, fun i _ => h i⟩⟩

/-- A value whose lower bounds are exactly the common lower bounds of a family is the family's infimum. -/
theorem eq_iInf_of_forall_le_iff {ι : Type} {v : EReal} {f : ι → EReal} (h : ∀ a, a ≤ v ↔ ∀ i, a ≤ f i) :
    v = ⨅ i, f i :=
  eq_of_forall_le_iff fun a => (h a).trans le_iInf_iff.symm

end Chamfer

end
-- ==== Proof.LibDotSingle.lean ====
/-
  A matrix product with ONE contracted axis, read at an index of the result, over the extended reals.

  Whatever the ranks of the operands and whichever axes are contracted, once the contracted axis has extent `K` and the
  operand indices at the `k`-th contraction coordinate are known (`li k`, `ri k`), the product into a zero accumulator
  is the finite sum `∑ k, x (li k) * w (ri k)`: the accumulator contributes `0`, and the one-axis contraction index is
  its coordinate.
-/
import Idealize.ShloMosaic.Lib.ValueIdx
import Idealize.ShloMosaic.PureOps.Ideal.Laws

namespace Cert.LibDotSingle

open Idealize.ShloMosaic Idealize.ShloMosaic.ValueIdx

/-- A `tpu.matmul` into the zero accumulator whose dimension numbers contract one axis of extent `K`, at the result
    index `j`, is the sum over `k : Fin K` of the left operand at `li k` times the right operand at `ri k`, where
    `li`, `ri` name the operand indices the dimension numbers give at contraction coordinate `k`. -/
theorem matmul_zero_apply {sl sr so : Shape} {φ₁ φ₂ : FTy} (d : DotDims sl sr so) (K : ℕ)
    (hr : d.contr.rank = 1) (hs : d.contr.size ⟨0, by omega⟩ = K) (prec : Option ContractPrecision)
    (x : FVec Ideal sl φ₁) (w : FVec Ideal sr φ₂) (j : so.Idx) (li : Fin K → sl.Idx) (ri : Fin K → sr.Idx)
    (hl : ∀ k, d.lhsIdx j ((contrEquiv1 d K hr hs).symm k) = li k)
    (hri : ∀ k, d.rhsIdx j ((contrEquiv1 d K hr hs).symm k) = ri k) :
    matmul d prec x w (constant (F := Ideal) so .f32 0x00000000#32) j = ∑ k : Fin K, x (li k) * w (ri k) := by
  refine (Ideal.matmul_constant_zero_apply d prec x w j).trans ?_
  refine (Equiv.sum_comp (contrEquiv1 d K hr hs).symm _).symm.trans ?_
  exact Finset.sum_congr rfl fun k _ => by rw [hl k, hri k]

end Cert.LibDotSingle
-- ==== Proof.KIPay.lean ====
/-
  The body's arithmetic read at an index, over the extended reals. On a row tile x (1024 points of ℝ³, one per row)
  and a column tile y (1024 points, one per lane, coordinates down the sublanes) the body forms the 1024 × 1024 table of
  squared distances |x_p|² + |y_q|² − 2⟨x_p, y_q⟩; the row update is the lane-wise minimum of the running row minima and
  each row's minimum over the table, the column update the same down the columns. A lower bound of an updated entry is
  a lower bound of the old entry and of every table entry folded in.
-/
import proofs.«180144_j377957122587_2_alg».proof.Proof.Gen.KernelIdeal.Skeleton
import proofs.«180144_j377957122587_2_alg».proof.Proof.ChamferSpec
import proofs.«180144_j377957122587_2_alg».proof.Proof.LibDotSingle
import Idealize.ShloMosaic.Lib.Pipeline.Value
import Idealize.ShloMosaic.Lib.ValueIdx
import Idealize.ShloMosaic.PureOps.Ideal.Laws

set_option maxRecDepth 16384

noncomputable section

namespace Cert.KernelIdeal.Val

open Cert.KernelIdeal Cert.KernelIdeal.Gen Idealize.ShloMosaic Idealize.ShloMosaic.ValueIdx Chamfer

/-- The literal 2 of both programs, as the extended real it denotes. -/
abbrev two : EReal := Ideal.ofBits .f32 0x40000000#32

theorem inf_eq_top : Ideal.ofBits .f32 0x7F800000#32 = (⊤ : EReal) := by simp [Ideal.ofBits, Ideal.ieee]

/-! ## The layout operations of the body, read at coordinates -/

theorem x_cast (v8 : Vec Ideal S1x1024x3 .f32) (p : Fin 1024) (k : Fin 3) :
    shapeCast S1024x3 v8 shapeCasts_S1x1024x3_S1024x3 (ix2 p k) = v8 (ix3 0 p k) :=
  shapeCast_apply _ _ _ _ (by rw [Shape.rowMajor_val_three, Shape.rowMajor_val_two]; simp)

theorem y_cast (v10 : Vec Ideal S1x3x1024 .f32) (k : Fin 3) (q : Fin 1024) :
    shapeCast S3x1024 v10 shapeCasts_S1x3x1024_S3x1024 (ix2 k q) = v10 (ix3 0 k q) :=
  shapeCast_apply _ _ _ _ (by rw [Shape.rowMajor_val_three, Shape.rowMajor_val_two]; simp)

/-- A vector of row values made a column and repeated along the lanes. -/
theorem col_bcast (r : FVec Ideal S1024 .f32) (p q : Fin 1024) :
    broadcastTo S1024x1024 (shapeCast S1024x1 r shapeCasts_S1024_S1024x1) broadcasts_S1024x1_S1024x1024 (ix2 p q) = r (ix1 p) := by
  rw [broadcastTo_apply _ _ _ (ix2 p 0) (fun a => by match a with | ⟨0, _⟩ => rfl | ⟨1, _⟩ => rfl)]
  exact shapeCast_apply _ _ _ _ (by rw [Shape.rowMajor_val_one, Shape.rowMajor_val_two]; simp)

/-- A vector of lane values made a row and repeated down the rows. -/
theorem row_bcast (r : FVec Ideal S1024 .f32) (p q : Fin 1024) :
    broadcastTo S1024x1024 (shapeCast S1x1024 r shapeCasts_S1024_S1x1024) broadcasts_S1x1024_S1024x1024 (ix2 p q) = r (ix1 q) := by
  rw [broadcastTo_apply _ _ _ (ix2 0 q) (fun a => by match a with | ⟨0, _⟩ => rfl | ⟨1, _⟩ => rfl)]
  exact shapeCast_apply _ _ _ _ (by rw [Shape.rowMajor_val_one, Shape.rowMajor_val_two]; simp)

/-- A vector of 1024 values laid along the lanes of a [1, 1, 1024] block. -/
theorem lane_cast (r : FVec Ideal S1024 .f32) (p : Fin 1024) :
    shapeCast S1x1x1024 r shapeCasts_S1024_S1x1x1024 (ix3 0 0 p) = r (ix1 p) :=
  shapeCast_apply _ _ _ _ (by rw [Shape.rowMajor_val_one, Shape.rowMajor_val_three]; simp)

/-! ## The reductions and the product of the body, read at coordinates -/

/-- Each row's squared norm: the sum of the squares of its three coordinates. -/
theorem x_sq (v9 : FVec Ideal S1024x3 .f32) (p : Fin 1024) :
    multiReduction (F := Ideal) .add [1] S1024 (mulf v9 v9) 0x00000000#32 reduces_S1024x3_S1024 (.inl rfl) rfl (ix1 p)
      = ∑ k : Fin 3, v9 (ix2 p k) * v9 (ix2 p k) := by
  refine (Ideal.multiReduction_add_single (mulf v9 v9) 0x00000000#32 reduces_S1024x3_S1024 (.inl rfl) rfl (ix1 p)).trans ?_
  refine Finset.sum_congr rfl fun k _ => ?_
  have e : reduces_S1024x3_S1024.lift (ix1 p) k = ix2 p k :=
    funext fun a => Fin.ext (by match a with | ⟨0, _⟩ => rfl | ⟨1, _⟩ => rfl)
  rw [e]; rfl

/-- Each lane's squared norm: the sum of the squares down its three sublanes. -/
theorem y_sq (v11 : FVec Ideal S3x1024 .f32) (q : Fin 1024) :
    multiReduction (F := Ideal) .add [0] S1024 (mulf v11 v11) 0x00000000#32 reduces_S3x1024_S1024 (.inl rfl) rfl (ix1 q)
      = ∑ k : Fin 3, v11 (ix2 k q) * v11 (ix2 k q) := by
  refine (Ideal.multiReduction_add_single (mulf v11 v11) 0x00000000#32 reduces_S3x1024_S1024 (.inl rfl) rfl (ix1 q)).trans ?_
  refine Finset.sum_congr rfl fun k _ => ?_
  have e : reduces_S3x1024_S1024.lift (ix1 q) k = ix2 k q :=
    funext fun a => Fin.ext (by match a with | ⟨0, _⟩ => rfl | ⟨1, _⟩ => rfl)
  rw [e]; rfl

/-- The dimension numbers of the body's product: rows of the left against columns of the right over the three
    coordinates. -/
abbrev D : DotDims S1024x3 S3x1024 S1024x1024 := dot_S1024x3_S3x1024_S1024x1024_1_0_0_1_n_n

theorem dotL0 (i : S1024x1024.Idx) (q : D.contr.Idx) : (D.lhsIdx i q 0).val = (i 0).val := by
  unfold DotDims.lhsIdx
  rw [dif_neg (show ¬(0 : Fin S1024x3.rank) ∈ D.lhsBatch by decide),
    dif_pos (show (0 : Fin S1024x3.rank) ∈ D.lhsNonContracting by decide)]
  rfl
theorem dotL1 (i : S1024x1024.Idx) (q : D.contr.Idx) : (D.lhsIdx i q 1).val = (q ⟨0, by decide⟩).val :=
  D.lhsIdx_val_of_single rfl i q
theorem dotR0 (i : S1024x1024.Idx) (q : D.contr.Idx) : (D.rhsIdx i q 0).val = (q ⟨0, by decide⟩).val :=
  D.rhsIdx_val_of_single rfl i q
theorem dotR1 (i : S1024x1024.Idx) (q : D.contr.Idx) : (D.rhsIdx i q 1).val = (i 1).val := by
  unfold DotDims.rhsIdx
  rw [dif_neg (show ¬(1 : Fin S3x1024.rank) ∈ D.rhsBatch by decide),
    dif_pos (show (1 : Fin S3x1024.rank) ∈ D.rhsNonContracting by decide)]
  rfl

/-- The product into the zero accumulator (the change of float format before it is the identity on the extended
    reals): entry (p, q) is the inner product of row p of the left with column q of the right. -/
theorem xy_dot (v9 : FVec Ideal S1024x3 .f32) (v11 : FVec Ideal S3x1024 .f32) (p q : Fin 1024) :
    matmul D none (truncf .bf16 v9 bitsLt_bf16_f32) (truncf .bf16 v11 bitsLt_bf16_f32)
        (constant (F := Ideal) S1024x1024 .f32 0x00000000#32) (ix2 p q)
      = ∑ k : Fin 3, v9 (ix2 p k) * v11 (ix2 k q) := by
  refine (Cert.LibDotSingle.matmul_zero_apply D 3 rfl rfl none _ _ (ix2 p q) (fun k => ix2 p k) (fun k => ix2 k q) ?_ ?_).trans rfl
  · intro k
    have hk := contrEquiv1_symm_val D 3 rfl rfl k
    exact funext fun a => Fin.ext (by
      match a with
      | ⟨0, _⟩ => exact dotL0 _ _
      | ⟨1, _⟩ => exact (dotL1 _ _).trans hk)
  · intro k
    have hk := contrEquiv1_symm_val D 3 rfl rfl k
    exact funext fun a => Fin.ext (by
      match a with
      | ⟨0, _⟩ => exact (dotR0 _ _).trans hk
      | ⟨1, _⟩ => exact dotR1 _ _)

/-- A row's minimum over the table, from +∞. -/
theorem row_min (v26 : FVec Ideal S1024x1024 .f32) (p : Fin 1024) :
    multiReduction (F := Ideal) .minimumf [1] S1024 v26 0x7F800000#32 reduces_S1024x1024_S1024 (.inl rfl) rfl (ix1 p)
      = (Finset.univ : Finset (Fin 1024)).fold min ⊤ (fun q => v26 (ix2 p q)) := by
  refine (multiReduction_minimumf_eq_fold v26 0x7F800000#32 reduces_S1024x1024_S1024 (.inl rfl) rfl (ix1 p)).trans ?_
  refine (reduces_S1024x1024_S1024.fold_filter_drop_single _ _ v26 (ix1 p)).trans ?_
  have e : (v26 ∘ reduces_S1024x1024_S1024.lift (ix1 p)) = fun q : Fin 1024 => v26 (ix2 p q) :=
    funext fun q => congrArg v26 (funext fun a => Fin.ext (by match a with | ⟨0, _⟩ => rfl | ⟨1, _⟩ => rfl))
  rw [e]
  exact congrArg (fun b => (Finset.univ : Finset (Fin 1024)).fold min b fun q => v26 (ix2 p q)) inf_eq_top

/-- A column's minimum over the table, from +∞. -/
theorem col_min (v26 : FVec Ideal S1024x1024 .f32) (q : Fin 1024) :
    multiReduction (F := Ideal) .minimumf [0] S1024 v26 0x7F800000#32 reduces_S1024x1024_S1024_2 (.inl rfl) rfl (ix1 q)
      = (Finset.univ : Finset (Fin 1024)).fold min ⊤ (fun p => v26 (ix2 p q)) := by
  refine (multiReduction_minimumf_eq_fold v26 0x7F800000#32 reduces_S1024x1024_S1024_2 (.inl rfl) rfl (ix1 q)).trans ?_
  refine (reduces_S1024x1024_S1024_2.fold_filter_drop_single _ _ v26 (ix1 q)).trans ?_
  have e : (v26 ∘ reduces_S1024x1024_S1024_2.lift (ix1 q)) = fun p : Fin 1024 => v26 (ix2 p q) :=
    funext fun p => congrArg v26 (funext fun a => Fin.ext (by match a with | ⟨0, _⟩ => rfl | ⟨1, _⟩ => rfl))
  rw [e]
  exact congrArg (fun b => (Finset.univ : Finset (Fin 1024)).fold min b fun p => v26 (ix2 p q)) inf_eq_top

/-! ## The payloads -/

/-- The table of squared distances of a row tile against a column tile. -/
theorem pay4_apply (x0 : Vec Ideal S1x1024x3 .f32) (x1 : Vec Ideal S1x3x1024 .f32) (p q : Fin 1024) :
    k0_pay4 (F := Ideal) x0 x1 (ix2 p q) = sqd two (fun k => x0 (ix3 0 p k)) (fun k => x1 (ix3 0 k q)) := by
  unfold k0_pay4 sqd
  dsimp only
  show (_ + _) - (_ * _) = (_ + _) - (_ * _)
  refine congrArg₂ (· - ·) (congrArg₂ (· + ·) ?_ ?_) (congrArg₂ (· * ·) rfl ?_)
  · exact (col_bcast _ p q).trans ((x_sq _ p).trans (Finset.sum_congr rfl fun k _ => by rw [x_cast]))
  · exact (row_bcast _ p q).trans ((y_sq _ q).trans (Finset.sum_congr rfl fun k _ => by rw [y_cast]))
  · exact (xy_dot _ _ p q).trans (Finset.sum_congr rfl fun k _ => by rw [x_cast, y_cast])

/-- The reset values are +∞ everywhere. -/
theorem pay2_apply (j : S1x1x1024.Idx) : k0_pay2 (F := Ideal) j = ⊤ := inf_eq_top
theorem pay3_apply (j : S1x1x4096.Idx) : k0_pay3 (F := Ideal) j = ⊤ := inf_eq_top

/-- The row update: a lower bound of the new running minimum of row p is a lower bound of the old one and of every
    table entry of row p. -/
theorem le_pay5_iff (x0 : Vec Ideal S1x1024x3 .f32) (x1 : Vec Ideal S1x3x1024 .f32) (v28 : Vec Ideal S1x1x1024 .f32)
    (p : Fin 1024) (a : EReal) :
    a ≤ k0_pay5 (F := Ideal) x0 x1 v28 (ix3 0 0 p)
      ↔ a ≤ v28 (ix3 0 0 p) ∧ ∀ q : Fin 1024, a ≤ k0_pay4 (F := Ideal) x0 x1 (ix2 p q) := by
  have e : k0_pay5 (F := Ideal) x0 x1 v28 (ix3 0 0 p)
      = min (v28 (ix3 0 0 p)) ((Finset.univ : Finset (Fin 1024)).fold min ⊤ (fun q => k0_pay4 (F := Ideal) x0 x1 (ix2 p q))) := by
    unfold k0_pay5
    dsimp only
    show min _ _ = min _ _
    refine congrArg₂ min ?_ ?_
    · rw [shapeCast_self]
    · exact (lane_cast _ p).trans (row_min _ p)
  rw [e, le_min_iff, le_fold_min_top_iff]

/-- The column update: a lower bound of the new running minimum of lane q is a lower bound of the old one and of
    every table entry of column q. -/
theorem le_pay1_iff (v26 : FVec Ideal S1024x1024 .f32) (v37 : Vec Ideal S1x1x1024 .f32) (q : Fin 1024) (a : EReal) :
    a ≤ k0_pay1 (F := Ideal) v26 v37 (ix3 0 0 q) ↔ a ≤ v37 (ix3 0 0 q) ∧ ∀ p : Fin 1024, a ≤ v26 (ix2 p q) := by
  have e : k0_pay1 (F := Ideal) v26 v37 (ix3 0 0 q)
      = min (v37 (ix3 0 0 q)) ((Finset.univ : Finset (Fin 1024)).fold min ⊤ (fun p => v26 (ix2 p q))) := by
    unfold k0_pay1
    dsimp only
    show min _ _ = min _ _
    refine congrArg₂ min ?_ ?_
    · rw [shapeCast_self]
    · exact (lane_cast _ q).trans (col_min _ q)
  rw [e, le_min_iff, le_fold_min_top_iff]

end Cert.KernelIdeal.Val

end
-- ==== Proof.KIBlocks.lean ====
/-
  Where the blocks sit. Point t of the (8, 4, 4) grid is batch t / 16, row tile (t / 4) % 4, column tile t % 4. The x
  window's block there is rows 1024·(row tile) … of that batch; the transposed-y window's block is lanes
  1024·(column tile) … of that batch; the column-minimum buffer's updated lanes are 1024·(column tile) … as well.
-/
import proofs.«180144_j377957122587_2_alg».proof.Proof.KIFrame
import proofs.«180144_j377957122587_2_alg».proof.Proof.KIPay

set_option maxRecDepth 16384

noncomputable section

namespace Cert.KernelIdeal.Val

open Cert.KernelIdeal Cert.KernelIdeal.Gen Cert.KernelIdeal.Body
open Idealize.ShloMosaic Idealize.ShloMosaic.TcCoe Idealize.ShloMosaic.ValueIdx Idealize.SL.Sem Chamfer
open Idealize.ShloMosaic.Pipeline (Dat)

/-- The grid's coordinates and the four index maps at every point, decided over the 128 points. -/
theorem grid_facts : ∀ t : Fin cfg0.N,
    ((grid0.coords t) 2).val = t.val % 4
    ∧ win0_0.index t (0 : Fin 3) = t.val / 16 ∧ win0_0.index t (1 : Fin 3) = (t.val / 4) % 4 ∧ win0_0.index t (2 : Fin 3) = 0
    ∧ win0_1.index t (0 : Fin 3) = t.val / 16 ∧ win0_1.index t (1 : Fin 3) = 0 ∧ win0_1.index t (2 : Fin 3) = t.val % 4
    ∧ win0_2.index t (0 : Fin 3) = t.val / 16 ∧ win0_2.index t (1 : Fin 3) = 0 ∧ win0_2.index t (2 : Fin 3) = (t.val / 4) % 4
    ∧ win0_3.index t (0 : Fin 3) = t.val / 16 ∧ win0_3.index t (1 : Fin 3) = 0 ∧ win0_3.index t (2 : Fin 3) = 0 :=
  (by decide +kernel : ∀ t : Fin grid0.N, _)

variable (m : (ℓ : Loc nD τ sig) → Buf (Elt Ideal) ℓ)

/-- The x window's block at point t, entry (row p, coordinate k): row 1024·(row tile) + p of the batch. -/
theorem x_blk (c : Dev nD) (t : Fin cfg0.N) (p : Fin 1024) (k : Fin 3) (b : Fin 8) (P : Fin 4096)
    (hb : b.val = t.val / 16) (hP : P.val = 1024 * ((t.val / 4) % 4) + p.val) :
    iblk m c 0 t (ix3 0 p k) = V m c main_arg0 (ix3 b P k) := by
  obtain ⟨-, e0, e1, e2, -⟩ := grid_facts t
  show V m c main_arg0 (((cfg0.win 0).blk t).view.emb (ix3 0 p k)) = V m c main_arg0 (ix3 b P k)
  refine congrArg (V m c main_arg0) (funext fun a => Fin.ext ?_)
  match a with
  | ⟨0, _⟩ => show win0_0.index t (0 : Fin 3) * 1 + 1 * 0 = b.val; omega
  | ⟨1, _⟩ => show win0_0.index t (1 : Fin 3) * 1024 + 1 * p.val = P.val; omega
  | ⟨2, _⟩ => show win0_0.index t (2 : Fin 3) * 3 + 1 * k.val = k.val; omega

/-- The transposed-y window's block at point t, entry (coordinate k, lane q): lane 1024·(column tile) + q. -/
theorem y_blk (c : Dev nD) (t : Fin cfg0.N) (k : Fin 3) (q : Fin 1024) (b : Fin 8) (Q : Fin 4096)
    (hb : b.val = t.val / 16) (hQ : Q.val = 1024 * (t.val % 4) + q.val) :
    iblk m c 1 t (ix3 0 k q) = V m c main_v0 (ix3 b k Q) := by
  obtain ⟨-, -, -, -, e0, e1, e2, -⟩ := grid_facts t
  show V m c main_v0 (((cfg0.win 1).blk t).view.emb (ix3 0 k q)) = V m c main_v0 (ix3 b k Q)
  refine congrArg (V m c main_v0) (funext fun a => Fin.ext ?_)
  match a with
  | ⟨0, _⟩ => show win0_1.index t (0 : Fin 3) * 1 + 1 * 0 = b.val; omega
  | ⟨1, _⟩ => show win0_1.index t (1 : Fin 3) * 3 + 1 * k.val = k.val; omega
  | ⟨2, _⟩ => show win0_1.index t (2 : Fin 3) * 1024 + 1 * q.val = Q.val; omega

/-- The squared distance of point P of the first cloud and point Q of the second in batch b, off the arrays as the
    region finds them (the second cloud already transposed: coordinates before points). -/
def PD (c : Dev nD) (b : Fin 8) (P Q : Fin 4096) : EReal :=
  sqd two (fun k => V m c main_arg0 (ix3 b P k)) (fun k => V m c main_v0 (ix3 b k Q))

/-- Entry (p, q) of point t's table is the squared distance of the points the blocks hold there. -/
theorem table_entry (c : Dev nD) (t : Fin cfg0.N) (p q : Fin 1024) (b : Fin 8) (P Q : Fin 4096)
    (hb : b.val = t.val / 16) (hP : P.val = 1024 * ((t.val / 4) % 4) + p.val) (hQ : Q.val = 1024 * (t.val % 4) + q.val) :
    k0_pay4 (F := Ideal) (iblk m c 0 t) (iblk m c 1 t) (ix2 p q) = PD m c b P Q := by
  refine (pay4_apply (iblk m c 0 t) (iblk m c 1 t) p q).trans ?_
  unfold PD
  refine congrArg₂ (sqd two) (funext fun k => ?_) (funext fun k => ?_)
  · exact x_blk m c t p k b P hb hP
  · exact y_blk m c t k q b Q hb hQ

/-- Lane n of the column-minimum buffer after the body, over the extended reals: a lower bound of it is a lower
    bound of what the lane held and, when the lane belongs to the current column tile, of that column of the table. -/
theorem le_colUpd_iff (c : Dev nD) (t : Fin cfg0.N) (xc : Vec Ideal S1x1x4096 .f32) (n : Fin 4096) (a : EReal) :
    a ≤ colUpd (F := Ideal) (grid0.coords t) (iblk m c 0 t) (iblk m c 1 t) xc (ix3 0 0 n)
      ↔ a ≤ xc (ix3 0 0 n) ∧ ∀ q : Fin 1024, n.val = 1024 * (t.val % 4) + q.val →
          ∀ p : Fin 1024, a ≤ k0_pay4 (F := Ideal) (iblk m c 0 t) (iblk m c 1 t) (ix2 p q) := by
  obtain ⟨hc2, -⟩ := grid_facts t
  have hoff := k0_off1_eq (grid0.coords t)
  unfold colUpd
  by_cases hin : 1024 * (t.val % 4) ≤ n.val ∧ n.val < 1024 * (t.val % 4) + 1024
  · have hq : n.val - 1024 * (t.val % 4) < 1024 := by omega
    have e : (colRect (grid0.coords t)).emb (ix3 0 0 (⟨n.val - 1024 * (t.val % 4), hq⟩ : Fin 1024)) = ix3 0 0 n :=
      funext fun ax => Fin.ext (by
        match ax with
        | ⟨0, _⟩ => show k0_off1 (grid0.coords t) 0 + 1 * 0 = 0; rw [hoff]; rfl
        | ⟨1, _⟩ => show k0_off1 (grid0.coords t) 1 + 1 * 0 = 0; rw [hoff]; rfl
        | ⟨2, _⟩ =>
          show k0_off1 (grid0.coords t) 2 + 1 * (n.val - 1024 * (t.val % 4)) = n.val
          rw [hoff]; show 1024 * ((grid0.coords t) 2).val + 1 * (n.val - 1024 * (t.val % 4)) = n.val
          omega)
    rw [← e, Rect.overlay_emb]
    refine (le_pay1_iff _ _ _ a).trans ?_
    show a ≤ xc ((colRect (grid0.coords t)).emb (ix3 0 0 _)) ∧ _ ↔ _
    constructor
    · rintro ⟨h1, h2⟩
      refine ⟨h1, fun q hq' p => ?_⟩
      have : q = ⟨n.val - 1024 * (t.val % 4), hq⟩ := Fin.ext (by simp only; omega)
      rw [this]; exact h2 p
    · rintro ⟨h1, h2⟩
      exact ⟨h1, fun p => h2 ⟨n.val - 1024 * (t.val % 4), hq⟩ (by simp only; omega) p⟩
  · have hn : ix3 (0 : Fin 1) (0 : Fin 1) n ∉ (colRect (grid0.coords t)).set := by
      rw [Rect.mem_set_unit]
      intro h
      have h2 := h 2
      rw [hoff] at h2
      have h2' : 1024 * ((grid0.coords t) 2).val ≤ n.val ∧ n.val < 1024 * ((grid0.coords t) 2).val + 1024 := h2
      omega
    rw [Rect.overlay_of_not_mem _ _ _ hn]
    exact ⟨fun h => ⟨h, fun q hq => by omega⟩, fun h => h.1⟩

end Cert.KernelIdeal.Val

end
-- ==== Proof.KIInv.lean ====
/-
  The running minima, point by point, over the extended reals. After point n (batch n / 16, row tile (n / 4) % 4, column
  tile n % 4) the row-minimum buffer's entry p has as lower bounds exactly the common lower bounds of the squared
  distances from row 1024·(row tile) + p to the columns of the column tiles visited so far in this row tile; the
  column-minimum buffer's lane N has as lower bounds exactly the common lower bounds of the squared distances to column N
  from the rows of the row tiles finished so far, and from the current row tile's rows too when lane N's column tile
  has been visited in it.
-/
import proofs.«180144_j377957122587_2_alg».proof.Proof.KIBlocks

set_option maxRecDepth 16384

noncomputable section

namespace Cert.KernelIdeal.Val

open Cert.KernelIdeal Cert.KernelIdeal.Gen Cert.KernelIdeal.Body
open Idealize.ShloMosaic Idealize.ShloMosaic.TcCoe Idealize.ShloMosaic.ValueIdx Idealize.SL.Sem Chamfer

variable (m : (ℓ : Loc nD τ sig) → Buf (Elt Ideal) ℓ)

/-- The first j + 1 tiles of 1024 are the first j tiles and tile j. -/
theorem forall_lt_tile {P : Fin 4096 → Prop} (j : ℕ) (hj : j < 4) :
    (∀ q : Fin 4096, q.val < 1024 * (j + 1) → P q) ↔
      (∀ q : Fin 4096, q.val < 1024 * j → P q) ∧ ∀ q' : Fin 1024, ∀ q : Fin 4096, q.val = 1024 * j + q'.val → P q := by
  constructor
  · intro h; exact ⟨fun q hq => h q (by omega), fun q' q hq => h q (by omega)⟩
  · rintro ⟨h1, h2⟩ q hq
    by_cases hlt : q.val < 1024 * j
    · exact h1 q hlt
    · exact h2 ⟨q.val - 1024 * j, by omega⟩ q (by simp only; omega)

/-! ## The row minimum -/

theorem row_reset_iff (c : Dev nD) (n : ℕ) (hn : n < cfg0.N) (h0 : n % 4 = 0) (p : Fin 1024) (a : EReal) :
    a ≤ (outs m c n hn).1 (ix3 0 0 p)
      ↔ ∀ q : Fin 1024, a ≤ k0_pay4 (F := Ideal) (iblk m c 0 ⟨n, hn⟩) (iblk m c 1 ⟨n, hn⟩) (ix2 p q) := by
  rw [outs_row_reset m c ⟨n, hn⟩ h0]
  refine (le_pay5_iff (iblk m c 0 ⟨n, hn⟩) (iblk m c 1 ⟨n, hn⟩) (k0_pay2 (F := Ideal)) p a).trans ?_
  rw [pay2_apply]
  exact ⟨fun h => h.2, fun h => ⟨le_top, h⟩⟩

theorem row_acc_iff (c : Dev nD) (n : ℕ) (hn : n < cfg0.N) (h0 : ¬n % 4 = 0) (p : Fin 1024) (a : EReal) :
    a ≤ (outs m c n hn).1 (ix3 0 0 p)
      ↔ a ≤ (outs m c (n - 1) (Nat.lt_of_le_of_lt (Nat.sub_le _ _) hn)).1 (ix3 0 0 p)
        ∧ ∀ q : Fin 1024, a ≤ k0_pay4 (F := Ideal) (iblk m c 0 ⟨n, hn⟩) (iblk m c 1 ⟨n, hn⟩) (ix2 p q) := by
  rw [outs_row_acc m c ⟨n, hn⟩ h0]
  exact le_pay5_iff (iblk m c 0 ⟨n, hn⟩) (iblk m c 1 ⟨n, hn⟩) _ p a

theorem row_tile_iff (c : Dev nD) (n : ℕ) (hn : n < cfg0.N) (p : Fin 1024) (a : EReal) (b : Fin 8) (P : Fin 4096)
    (hb : b.val = n / 16) (hP : P.val = 1024 * ((n / 4) % 4) + p.val) :
    (∀ q : Fin 1024, a ≤ k0_pay4 (F := Ideal) (iblk m c 0 ⟨n, hn⟩) (iblk m c 1 ⟨n, hn⟩) (ix2 p q))
      ↔ ∀ q' : Fin 1024, ∀ Q : Fin 4096, Q.val = 1024 * (n % 4) + q'.val → a ≤ PD m c b P Q := by
  have hN : n < 128 := lt_of_lt_of_eq hn (show cfg0.N = 128 from N_0)
  constructor
  · intro h q' Q hQ
    rw [← table_entry m c ⟨n, hn⟩ p q' b P Q hb hP hQ]; exact h q'
  · intro h q
    rw [table_entry m c ⟨n, hn⟩ p q b P ⟨1024 * (n % 4) + q.val, by omega⟩ hb hP rfl]
    exact h q _ rfl

/-- THE ROW INVARIANT. -/
theorem row_inv (c : Dev nD) (n : ℕ) : ∀ (hn : n < cfg0.N) (p : Fin 1024) (a : EReal) (b : Fin 8) (P : Fin 4096),
    b.val = n / 16 → P.val = 1024 * ((n / 4) % 4) + p.val →
    (a ≤ (outs m c n hn).1 (ix3 0 0 p) ↔ ∀ Q : Fin 4096, Q.val < 1024 * (n % 4 + 1) → a ≤ PD m c b P Q) := by
  induction n using Nat.strong_induction_on with
  | _ n ih =>
    intro hn p a b P hb hP
    have hN : n < 128 := lt_of_lt_of_eq hn (show cfg0.N = 128 from N_0)
    rw [forall_lt_tile (n % 4) (by omega)]
    by_cases h0 : n % 4 = 0
    · refine (row_reset_iff m c n hn h0 p a).trans ?_
      refine (row_tile_iff m c n hn p a b P hb hP).trans ?_
      exact ⟨fun h => ⟨fun Q hQ => by rw [h0] at hQ; omega, h⟩, fun h => h.2⟩
    · refine (row_acc_iff m c n hn h0 p a).trans ?_
      refine and_congr ?_ (row_tile_iff m c n hn p a b P hb hP)
      refine (ih (n - 1) (by omega) (Nat.lt_of_le_of_lt (Nat.sub_le _ _) hn) p a b P (by omega) (by omega)).trans ?_
      have e : (n - 1) % 4 + 1 = n % 4 := by omega
      rw [e]

/-! ## The column minimum -/

theorem col_reset_iff (c : Dev nD) (n : ℕ) (hn : n < cfg0.N) (h1 : n % 16 = 0) (N : Fin 4096) (a : EReal) :
    a ≤ (outs m c n hn).2 (ix3 0 0 N)
      ↔ ∀ q : Fin 1024, N.val = 1024 * (n % 4) + q.val →
          ∀ p : Fin 1024, a ≤ k0_pay4 (F := Ideal) (iblk m c 0 ⟨n, hn⟩) (iblk m c 1 ⟨n, hn⟩) (ix2 p q) := by
  rw [outs_col_reset m c ⟨n, hn⟩ h1]
  refine (le_colUpd_iff m c ⟨n, hn⟩ _ N a).trans ?_
  rw [pay3_apply]
  exact ⟨fun h => h.2, fun h => ⟨le_top, h⟩⟩

theorem col_acc_iff (c : Dev nD) (n : ℕ) (hn : n < cfg0.N) (h1 : ¬n % 16 = 0) (N : Fin 4096) (a : EReal) :
    a ≤ (outs m c n hn).2 (ix3 0 0 N)
      ↔ a ≤ (outs m c (n - 1) (Nat.lt_of_le_of_lt (Nat.sub_le _ _) hn)).2 (ix3 0 0 N)
        ∧ ∀ q : Fin 1024, N.val = 1024 * (n % 4) + q.val →
          ∀ p : Fin 1024, a ≤ k0_pay4 (F := Ideal) (iblk m c 0 ⟨n, hn⟩) (iblk m c 1 ⟨n, hn⟩) (ix2 p q) := by
  rw [outs_col_acc m c ⟨n, hn⟩ h1]
  exact le_colUpd_iff m c ⟨n, hn⟩ _ N a

theorem col_tile_iff (c : Dev nD) (n : ℕ) (hn : n < cfg0.N) (N : Fin 4096) (a : EReal) (b : Fin 8) (hb : b.val = n / 16) :
    (∀ q : Fin 1024, N.val = 1024 * (n % 4) + q.val →
        ∀ p : Fin 1024, a ≤ k0_pay4 (F := Ideal) (iblk m c 0 ⟨n, hn⟩) (iblk m c 1 ⟨n, hn⟩) (ix2 p q))
      ↔ ∀ R : Fin 4096, (1024 * ((n / 4) % 4) ≤ R.val ∧ R.val < 1024 * ((n / 4) % 4) + 1024
          ∧ 1024 * (n % 4) ≤ N.val ∧ N.val < 1024 * (n % 4) + 1024) → a ≤ PD m c b R N := by
  have hN : n < 128 := lt_of_lt_of_eq hn (show cfg0.N = 128 from N_0)
  constructor
  · rintro h R ⟨h1, h2, h3, h4⟩
    have := h ⟨N.val - 1024 * (n % 4), by omega⟩ (by simp only; omega) ⟨R.val - 1024 * ((n / 4) % 4), by omega⟩
    rwa [table_entry m c ⟨n, hn⟩ _ _ b R N hb (by simp only; omega) (by simp only; omega)] at this
  · intro h q hq p
    rw [table_entry m c ⟨n, hn⟩ p q b ⟨1024 * ((n / 4) % 4) + p.val, by omega⟩ N hb rfl hq]
    exact h _ ⟨by simp only; omega, by simp only; omega, by omega, by omega⟩

/-- THE COLUMN INVARIANT. -/
theorem col_inv (c : Dev nD) (n : ℕ) : ∀ (hn : n < cfg0.N) (N : Fin 4096) (a : EReal) (b : Fin 8), b.val = n / 16 →
    (a ≤ (outs m c n hn).2 (ix3 0 0 N) ↔ ∀ R : Fin 4096,
      (R.val < 1024 * ((n / 4) % 4) ∨ (R.val < 1024 * ((n / 4) % 4 + 1) ∧ N.val < 1024 * (n % 4 + 1))) → a ≤ PD m c b R N) := by
  induction n using Nat.strong_induction_on with
  | _ n ih =>
    intro hn N a b hb
    have hN : n < 128 := lt_of_lt_of_eq hn (show cfg0.N = 128 from N_0)
    by_cases h1 : n % 16 = 0
    · refine (col_reset_iff m c n hn h1 N a).trans ?_
      refine (col_tile_iff m c n hn N a b hb).trans ?_
      constructor
      · intro h R hR; exact h R (by omega)
      · intro h R hR; exact h R (by omega)
    · refine (col_acc_iff m c n hn h1 N a).trans ?_
      rw [ih (n - 1) (by omega) (Nat.lt_of_le_of_lt (Nat.sub_le _ _) hn) N a b (by omega), col_tile_iff m c n hn N a b hb]
      constructor
      · rintro ⟨hA, hB⟩ R hR
        by_cases hprev : R.val < 1024 * (((n - 1) / 4) % 4) ∨ (R.val < 1024 * (((n - 1) / 4) % 4 + 1) ∧ N.val < 1024 * ((n - 1) % 4 + 1))
        · exact hA R hprev
        · exact hB R (by omega)
      · intro h
        exact ⟨fun R hR => h R (by omega), fun R hR => h R (by omega)⟩

end Cert.KernelIdeal.Val

end
-- ==== Proof.KIFinal.lean ====
/-
  From blocks to arrays. The row-minimum window writes its buffer back after the last column tile of each row tile
  (points ≡ 3 mod 4), when the buffer holds, by the row invariant, the minimum over ALL 4096 columns; the column-minimum
  window writes back after the last point of each batch (points ≡ 15 mod 16), when by the column invariant its buffer
  holds the minimum over ALL 4096 rows. The written-back blocks tile the two result arrays, so each array ends as one
  function of the argument arrays: entry (b, 0, P) the infimum over Q of the squared distances, and (b, 0, Q) the
  infimum over P.
-/
import proofs.«180144_j377957122587_2_alg».proof.Proof.KIInv

set_option maxRecDepth 16384

noncomputable section

namespace Cert.KernelIdeal.Val

open Cert.KernelIdeal Cert.KernelIdeal.Gen Cert.KernelIdeal.Body
open Idealize.ShloMosaic Idealize.ShloMosaic.TcCoe Idealize.ShloMosaic.ValueIdx Idealize.SL.Sem Chamfer
open Idealize.ShloMosaic.Pipeline (Dat)

variable (m : (ℓ : Loc nD τ sig) → Buf (Elt Ideal) ℓ)

/-- The nearest-column distance of every row, and the nearest-row distance of every column. -/
def rowG (c : Dev nD) : S8x1x4096.Idx → EReal := fun i => ⨅ Q : Fin 4096, PD m c (i 0) (i 2) Q
def colG (c : Dev nD) : S8x1x4096.Idx → EReal := fun i => ⨅ R : Fin 4096, PD m c (i 0) R (i 2)

/-- A block index is its lane: the two leading axes have extent one. -/
theorem lane_of_idx {L : ℕ} (j : (⟨3, ![1, 1, L]⟩ : Shape).Idx) : j = ix3 0 0 (j 2) := by
  funext a
  match a with
  | ⟨0, _⟩ => exact Fin.ext (by have h : (j 0).val < 1 := (j 0).isLt; show (j 0).val = 0; omega)
  | ⟨1, _⟩ => exact Fin.ext (by have h : (j 1).val < 1 := (j 1).isLt; show (j 1).val = 0; omega)
  | ⟨2, _⟩ => rfl

/-! ## The row minima -/

/-- After a point ≡ 3 (mod 4) the row-minimum buffer's entry p is the nearest-column distance of the row it stands for. -/
theorem row_flushed_at (c : Dev nD) (t : Fin cfg0.N) (h3 : t.val % 4 = 3) (p : Fin 1024) :
    (outs m c t.val t.isLt).1 (ix3 0 0 p) = rowG m c (((cfg0.win 2).blk t).view.emb (ix3 0 0 p)) := by
  have hN : t.val < 128 := lt_of_lt_of_eq t.isLt (show cfg0.N = 128 from N_0)
  obtain ⟨-, -, -, -, -, -, -, e0, e1, e2, -⟩ := grid_facts t
  have hb8 : t.val / 16 < 8 := by omega
  have hP4 : 1024 * ((t.val / 4) % 4) + p.val < 4096 := by have := p.isLt; omega
  have eb : (((cfg0.win 2).blk t).view.emb (ix3 0 0 p)) 0 = (⟨t.val / 16, hb8⟩ : Fin 8) :=
    Fin.ext (by show win0_2.index t (0 : Fin 3) * 1 + 1 * 0 = t.val / 16; omega)
  have eP : (((cfg0.win 2).blk t).view.emb (ix3 0 0 p)) 2 = (⟨1024 * ((t.val / 4) % 4) + p.val, hP4⟩ : Fin 4096) :=
    Fin.ext (by show win0_2.index t (2 : Fin 3) * 1024 + 1 * p.val = 1024 * ((t.val / 4) % 4) + p.val; omega)
  unfold rowG
  rw [eb, eP]
  refine eq_iInf_of_forall_le_iff fun a => ?_
  refine (row_inv m c t.val t.isLt p a ⟨t.val / 16, hb8⟩ ⟨1024 * ((t.val / 4) % 4) + p.val, hP4⟩ rfl rfl).trans ?_
  exact ⟨fun h Q => h Q (by have := Q.isLt; omega), fun h Q _ => h Q⟩

/-- What a point ≡ 3 (mod 4) writes back is its block of the nearest-column distances. -/
theorem row_flushed (c : Dev nD) (t : Fin cfg0.N) (hf : (cfg0.win 2).flush t = true) :
    (dats m 0 c).flushed 2 t = ((cfg0.win 2).blk t).view.read (Elt Ideal) (rowG m c) := by
  have h3 : t.val % 4 = 3 := (flush0_2 t).mp hf
  show (cfg0.win 2).cut (grid0.coords t) ((dats m 0 c).after 2 t) = _
  rw [after_row]
  funext j
  have hj : j = ix3 0 0 (show Fin 1024 from j 2) := lane_of_idx (L := 1024) j
  show (outs m c t.val t.isLt).1 j = rowG m c (((cfg0.win 2).blk t).view.emb j)
  exact (congrArg (fun y : S1x1x1024.Idx => (outs m c t.val t.isLt).1 y) hj).trans
    ((row_flushed_at m c t h3 (show Fin 1024 from j 2)).trans
      (congrArg (fun y : S1x1x1024.Idx => rowG m c (((cfg0.win 2).blk t).view.emb y)) hj.symm))

theorem mem_blk_row (t : Fin cfg0.N) (i : S8x1x4096.Idx) :
    i ∈ ((cfg0.win 2).blk t).view.set ↔ ∀ a : Fin 3, win0_2.index t a * S1x1x1024.size a ≤ (i a).val
      ∧ (i a).val < win0_2.index t a * S1x1x1024.size a + S1x1x1024.size a := by
  show i ∈ ((View.whole main_v1_0).slice (win0_2.rect t)).set ↔ _
  rw [View.set_slice_whole, Rect.mem_set_unit]
  exact Iff.rfl

/-- Every entry of the row-minimum array is in the block some point ≡ 3 (mod 4) writes back. -/
theorem row_cover (i : S8x1x4096.Idx) :
    ∃ t : Fin cfg0.N, (cfg0.win 2).flush t = true ∧ i ∈ ((cfg0.win 2).blk t).view.set := by
  have h0 : (i 0).val < 8 := (i 0).isLt
  have h1 : (i 1).val < 1 := (i 1).isLt
  have h2 : (i 2).val < 4096 := (i 2).isLt
  have hN : 16 * (i 0).val + 4 * ((i 2).val / 1024) + 3 < cfg0.N := by rw [show cfg0.N = 128 from N_0]; omega
  refine ⟨⟨16 * (i 0).val + 4 * ((i 2).val / 1024) + 3, hN⟩, (flush0_2 _).mpr (by simp only; omega), ?_⟩
  obtain ⟨-, -, -, -, -, -, -, e0, e1, e2, -⟩ := grid_facts ⟨16 * (i 0).val + 4 * ((i 2).val / 1024) + 3, hN⟩
  simp only at e0 e1 e2
  rw [mem_blk_row]
  intro a
  match a with
  | ⟨0, _⟩ => show win0_2.index _ (0 : Fin 3) * 1 ≤ (i 0).val ∧ (i 0).val < win0_2.index _ (0 : Fin 3) * 1 + 1; omega
  | ⟨1, _⟩ => show win0_2.index _ (1 : Fin 3) * 1 ≤ (i 1).val ∧ (i 1).val < win0_2.index _ (1 : Fin 3) * 1 + 1; omega
  | ⟨2, _⟩ => show win0_2.index _ (2 : Fin 3) * 1024 ≤ (i 2).val ∧ (i 2).val < win0_2.index _ (2 : Fin 3) * 1024 + 1024; omega

/-- The row-minimum array after the run. -/
theorem row_final (c : Dev nD) : (dats m 0 c).arrAt 2 cfg0.N = rowG m c :=
  (dats m 0 c).arrAt_eq_of_cover 2 (rowG m c) (fun t hf => row_flushed m c t hf) row_cover

/-! ## The column minima -/

/-- After a point ≡ 15 (mod 16) the column-minimum buffer's lane n is the nearest-row distance of column n. -/
theorem col_flushed_at (c : Dev nD) (t : Fin cfg0.N) (h3 : t.val % 16 = 15) (n : Fin 4096) :
    (outs m c t.val t.isLt).2 (ix3 0 0 n) = colG m c (((cfg0.win 3).blk t).view.emb (ix3 0 0 n)) := by
  have hN : t.val < 128 := lt_of_lt_of_eq t.isLt (show cfg0.N = 128 from N_0)
  obtain ⟨-, -, -, -, -, -, -, -, -, -, e0, e1, e2⟩ := grid_facts t
  have hb8 : t.val / 16 < 8 := by omega
  have eb : (((cfg0.win 3).blk t).view.emb (ix3 0 0 n)) 0 = (⟨t.val / 16, hb8⟩ : Fin 8) :=
    Fin.ext (by show win0_3.index t (0 : Fin 3) * 1 + 1 * 0 = t.val / 16; omega)
  have eN : (((cfg0.win 3).blk t).view.emb (ix3 0 0 n)) 2 = n :=
    Fin.ext (by show win0_3.index t (2 : Fin 3) * 4096 + 1 * n.val = n.val; omega)
  unfold colG
  rw [eb, eN]
  refine eq_iInf_of_forall_le_iff fun a => ?_
  refine (col_inv m c t.val t.isLt n a ⟨t.val / 16, hb8⟩ rfl).trans ?_
  exact ⟨fun h R => h R (by have := R.isLt; have := n.isLt; omega), fun h R _ => h R⟩

/-- What a point ≡ 15 (mod 16) writes back is its batch's nearest-row distances. -/
theorem col_flushed (c : Dev nD) (t : Fin cfg0.N) (hf : (cfg0.win 3).flush t = true) :
    (dats m 0 c).flushed 3 t = ((cfg0.win 3).blk t).view.read (Elt Ideal) (colG m c) := by
  have h3 : t.val % 16 = 15 := (flush0_3 t).mp hf
  show (cfg0.win 3).cut (grid0.coords t) ((dats m 0 c).after 3 t) = _
  rw [after_col]
  funext j
  have hj : j = ix3 0 0 (show Fin 4096 from j 2) := lane_of_idx (L := 4096) j
  show (outs m c t.val t.isLt).2 j = colG m c (((cfg0.win 3).blk t).view.emb j)
  exact (congrArg (fun y : S1x1x4096.Idx => (outs m c t.val t.isLt).2 y) hj).trans
    ((col_flushed_at m c t h3 (show Fin 4096 from j 2)).trans
      (congrArg (fun y : S1x1x4096.Idx => colG m c (((cfg0.win 3).blk t).view.emb y)) hj.symm))

theorem mem_blk_col (t : Fin cfg0.N) (i : S8x1x4096.Idx) :
    i ∈ ((cfg0.win 3).blk t).view.set ↔ ∀ a : Fin 3, win0_3.index t a * S1x1x4096.size a ≤ (i a).val
      ∧ (i a).val < win0_3.index t a * S1x1x4096.size a + S1x1x4096.size a := by
  show i ∈ ((View.whole main_v1_1).slice (win0_3.rect t)).set ↔ _
  rw [View.set_slice_whole, Rect.mem_set_unit]
  exact Iff.rfl

/-- Every entry of the column-minimum array is in the block some point ≡ 15 (mod 16) writes back. -/
theorem col_cover (i : S8x1x4096.Idx) :
    ∃ t : Fin cfg0.N, (cfg0.win 3).flush t = true ∧ i ∈ ((cfg0.win 3).blk t).view.set := by
  have h0 : (i 0).val < 8 := (i 0).isLt
  have h1 : (i 1).val < 1 := (i 1).isLt
  have h2 : (i 2).val < 4096 := (i 2).isLt
  have hN : 16 * (i 0).val + 15 < cfg0.N := by rw [show cfg0.N = 128 from N_0]; omega
  refine ⟨⟨16 * (i 0).val + 15, hN⟩, (flush0_3 _).mpr (by simp only; omega), ?_⟩
  obtain ⟨-, -, -, -, -, -, -, -, -, -, e0, e1, e2⟩ := grid_facts ⟨16 * (i 0).val + 15, hN⟩
  simp only at e0 e1 e2
  rw [mem_blk_col]
  intro a
  match a with
  | ⟨0, _⟩ => show win0_3.index _ (0 : Fin 3) * 1 ≤ (i 0).val ∧ (i 0).val < win0_3.index _ (0 : Fin 3) * 1 + 1; omega
  | ⟨1, _⟩ => show win0_3.index _ (1 : Fin 3) * 1 ≤ (i 1).val ∧ (i 1).val < win0_3.index _ (1 : Fin 3) * 1 + 1; omega
  | ⟨2, _⟩ => show win0_3.index _ (2 : Fin 3) * 4096 ≤ (i 2).val ∧ (i 2).val < win0_3.index _ (2 : Fin 3) * 4096 + 4096; omega

/-- The column-minimum array after the run. -/
theorem col_final (c : Dev nD) : (dats m 0 c).arrAt 3 cfg0.N = colG m c :=
  (dats m 0 c).arrAt_eq_of_cover 3 (colG m c) (fun t hf => col_flushed m c t hf) col_cover

end Cert.KernelIdeal.Val

end
-- ==== Proof.ChamferLoss.lean ====
/-
  The loss both programs compute, as one function of the two point clouds: for every point of the second cloud the
  squared distance to its nearest point of the first, for every point of the first the squared distance to its nearest
  point of the second, the two means added and the sum scaled — the two clouds given as [8, 4096, 3] arrays of extended
  reals, a minimum over 4096 points as an infimum.
-/
import proofs.«180144_j377957122587_2_alg».proof.Proof.ChamferSpec

noncomputable section

namespace Chamfer

open Idealize.ShloMosaic Idealize.ShloMosaic.ValueIdx

/-- The shapes: a batch of point clouds, a batch of per-point minima, a scalar. -/
abbrev Pts : Shape := ⟨3, ![8, 4096, 3]⟩
abbrev Mins : Shape := ⟨2, ![8, 4096]⟩
abbrev Scal : Shape := ⟨0, ![]⟩

/-- The programs' literal 2 and +∞ as extended reals. -/
abbrev lit2 : EReal := Ideal.ofBits .f32 0x40000000#32
theorem ofBits_inf : Ideal.ofBits .f32 0x7F800000#32 = (⊤ : EReal) := by simp [Ideal.ofBits, Ideal.ieee]

/-- The squared distance of point P of the first cloud and point Q of the second, in batch b. -/
def pd (X Y : Pts.Idx → EReal) (b : Fin 8) (P Q : Fin 4096) : EReal :=
  sqd lit2 (fun k => X (ix3 b P k)) (fun k => Y (ix3 b Q k))

/-- For every point of the first cloud, the distance to its nearest point of the second; -/
def rowArr (X Y : Pts.Idx → EReal) : Mins.Idx → EReal := fun i => ⨅ Q : Fin 4096, pd X Y (i 0) (i 1) Q
/-- for every point of the second cloud, the distance to its nearest point of the first. -/
def colArr (X Y : Pts.Idx → EReal) : Mins.Idx → EReal := fun i => ⨅ P : Fin 4096, pd X Y (i 0) P (i 1)

/-- The two means (each a sum from 0 divided by the literal 32768), added, times the literal 0.005 — the host
    operations both programs end with, the column minima first. -/
def loss (hR : Mins.ReducesTo [0, 1] Scal) (h0 : 0 < Scal.numel) (col row : FVec Ideal Mins .f32) : FVec Ideal Scal .f32 :=
  mulf
    (addf
      (Host.divf (F := Ideal) (Host.reduceAdd (F := Ideal) col (constant (F := Ideal) Scal .f32 0x00000000#32) hR h0)
        (constant (F := Ideal) Scal .f32 0x47000000#32))
      (Host.divf (F := Ideal) (Host.reduceAdd (F := Ideal) row (constant (F := Ideal) Scal .f32 0x00000000#32) hR h0)
        (constant (F := Ideal) Scal .f32 0x47000000#32)))
    (constant (F := Ideal) Scal .f32 0x3BA3D70A#32)

end Chamfer

end
-- ==== Proof.KITail.lean ====
/-
  The kernel program's result. The host lines after the region reshape the two result arrays to [8, 4096], and then
  are the loss's own tail; the arrays are the two families of infima of squared distances between the first cloud and
  the second (the second was transposed before the region and is read back through the transposition), so the result is
  the loss of the two argument clouds.
-/
import proofs.«180144_j377957122587_2_alg».proof.Proof.KIFinal
import proofs.«180144_j377957122587_2_alg».proof.Proof.ChamferLoss
import Idealize.ShloMosaic.Lib.StableHlo.Run
import Idealize.ShloMosaic.Lib.ValueLayout

set_option maxRecDepth 16384

noncomputable section

namespace Cert.KernelIdeal.Val

open Cert.KernelIdeal Cert.KernelIdeal.Gen Cert.KernelIdeal.Body
open Idealize.ShloMosaic Idealize.ShloMosaic.TcCoe Idealize.ShloMosaic.ValueIdx Idealize.SL.Sem Chamfer
open Idealize.ShloMosaic.StableHlo
open Idealize.ShloMosaic.Pipeline (Dat)

variable (m : (ℓ : Loc nD τ sig) → Buf (Elt Ideal) ℓ) (ρ : Dev nD → PrngReg)

/-- The second cloud as the region finds it: the argument, transposed by the host line before the region. -/
theorem V_yt (c : Dev nD) : (V m c main_v0 : S8x3x4096.Idx → EReal)
    = transpose S8x3x4096 [0, 2, 1] (m ((c : Thread nD τ).loc main_arg1)) transposes_S8x4096x3_S8x3x4096_0_2_1 := by
  show StableHlo.after hostOps0 (fun b => m (c, b)) (Proc.devRef .tc main_v0) = _
  after_results

/-- The squared distances off the arrays the region finds are those of the two argument clouds. -/
theorem PD_eq (c : Dev nD) (b : Fin 8) (P Q : Fin 4096) :
    PD m c b P Q = pd (m ((c : Thread nD τ).loc main_arg0)) (m ((c : Thread nD τ).loc main_arg1)) b P Q := by
  unfold PD pd
  refine congrArg₂ (sqd _) (funext fun k => ?_) (funext fun k => ?_)
  · exact congrFun (V_main_arg0 m c) _
  · rw [V_yt]
    exact transpose_ix3_021_apply _ _ b k Q

/-- The column-minimum array, reshaped, is the loss's family of nearest-first-cloud distances; -/
theorem col_reshape (c : Dev nD) :
    shapeCast S8x4096 (colG m c) shapeCasts_S8x1x4096_S8x4096
      = colArr (m ((c : Thread nD τ).loc main_arg0)) (m ((c : Thread nD τ).loc main_arg1)) := by
  funext i
  obtain ⟨b, n, rfl⟩ : ∃ (b : Fin 8) (n : Fin 4096), i = ix2 b n := ⟨i 0, i 1, eq_ix2 i⟩
  rw [shapeCast_apply _ _ _ (ix3 b 0 n) (by rw [Shape.rowMajor_val_three, Shape.rowMajor_val_two]; simp)]
  show (⨅ R : Fin 4096, PD m c b R n) = ⨅ R : Fin 4096, pd _ _ b R n
  exact iInf_congr fun R => PD_eq m c b R n

/-- the row-minimum array, reshaped, its family of nearest-second-cloud distances. -/
theorem row_reshape (c : Dev nD) :
    shapeCast S8x4096 (rowG m c) shapeCasts_S8x1x4096_S8x4096
      = rowArr (m ((c : Thread nD τ).loc main_arg0)) (m ((c : Thread nD τ).loc main_arg1)) := by
  funext i
  obtain ⟨b, n, rfl⟩ : ∃ (b : Fin 8) (n : Fin 4096), i = ix2 b n := ⟨i 0, i 1, eq_ix2 i⟩
  rw [shapeCast_apply _ _ _ (ix3 b 0 n) (by rw [Shape.rowMajor_val_three, Shape.rowMajor_val_two]; simp)]
  show (⨅ Q : Fin 4096, PD m c b n Q) = ⨅ Q : Fin 4096, pd _ _ b n Q
  exact iInf_congr fun Q => PD_eq m c b n Q

/-- THE RESULT after the host lines that follow the region. -/
theorem result_eq (c : Dev nD) :
    Pipeline.afterTail₀ cfgs (dats m) 0 (V0 m) [hostOps1] c main_v9
      = loss reducesTo_S8x4096_S_d0_1 h_S_
          (colArr (m ((c : Thread nD τ).loc main_arg0)) (m ((c : Thread nD τ).loc main_arg1)))
          (rowArr (m ((c : Thread nD τ).loc main_arg0)) (m ((c : Thread nD τ).loc main_arg1))) := by
  unfold Pipeline.afterTail₀
  show StableHlo.after hostOps1 _ (Proc.devRef .tc main_v9) = _
  after_results
  have hc : Pipeline.withArrays (cfgs 0).spec c (V0 m c) (fun w => (dats m 0 c).arrAt w (cfgs 0).N) (Proc.devRef .tc main_v1_1)
      = colG m c := (Pipeline.withArrays_arr spec0 launch0.win.arr_inj c _ _ 3).trans (col_final m c)
  have hr : Pipeline.withArrays (cfgs 0).spec c (V0 m c) (fun w => (dats m 0 c).arrAt w (cfgs 0).N) (Proc.devRef .tc main_v1_0)
      = rowG m c := (Pipeline.withArrays_arr spec0 launch0.win.arr_inj c _ _ 2).trans (row_final m c)
  rw [hc, hr, ← col_reshape m c, ← row_reshape m c]
  rfl

/-- THE RUN, read: every weakly fair execution of the kernel program terminates with its result at the loss of the two
    argument clouds, and the arguments unchanged. -/
theorem run : θ_run defs (onTc (τ := τ) (main (F := Ideal))) ⟨m, fun _ => 0, ρ⟩ fun r => ∀ c : Dev nD,
      r.2.mem ((c.tc : Thread nD τ).loc main_v9)
        = loss reducesTo_S8x4096_S_d0_1 h_S_
            (colArr (m ((c : Thread nD τ).loc main_arg0)) (m ((c : Thread nD τ).loc main_arg1)))
            (rowArr (m ((c : Thread nD τ).loc main_arg0)) (m ((c : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v9 (Pipeline.mem_restRefs_of main_v9 (by decide) (by decide))).trans (result_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c)⟩)
    (run_main m ρ)

end Cert.KernelIdeal.Val

end
-- ==== Proof.RefValue.lean ====
/-
  The reference program's result is the loss of the two argument clouds. Its table of squared distances is, entry by
  entry, |x_P|² + |y_Q|² − 2⟨x_P, y_Q⟩ (the two sums of squares each start from the literal 0, which adds nothing); its two
  minimum-reductions from +∞ are the two families of infima; what follows is the loss's own tail.
-/
import proofs.«180144_j377957122587_2_alg».proof.Proof.Gen.ReferenceIdeal.Read
import proofs.«180144_j377957122587_2_alg».proof.Proof.ChamferLoss
import Idealize.ShloMosaic.Lib.ValueIdx
import Idealize.ShloMosaic.PureOps.Ideal.Laws

set_option maxRecDepth 16384

noncomputable section

namespace Cert.ReferenceIdeal.RefValue

open Cert.ReferenceIdeal Cert.ReferenceIdeal.Gen Cert.ReferenceIdeal.Read
open Idealize.ShloMosaic Idealize.ShloMosaic.ValueIdx Chamfer

/-- Entry (b, P, Q) of the reference's table. -/
theorem v12_apply (X Y : (⟨S8x4096x3, .f32⟩ : BufTy).Contents (Elt Ideal)) (b : Fin 8) (P Q : Fin 4096) :
    val_main_v12 (F := Ideal) X Y (ix3 b P Q) = pd X Y b P Q := by
  have e1 : ∀ k : Fin 3, idx_main_v1 (idx_main_v5 (idx_main_v7 (ix3 b P Q))) k = ix3 b P k := fun k =>
    funext fun a => Fin.ext (by match a with | ⟨0, _⟩ => rfl | ⟨1, _⟩ => rfl | ⟨2, _⟩ => rfl)
  have e3 : ∀ k : Fin 3, idx_main_v3 (idx_main_v6 (idx_main_v8 (ix3 b P Q))) k = ix3 b Q k := fun k =>
    funext fun a => Fin.ext (by match a with | ⟨0, _⟩ => rfl | ⟨1, _⟩ => rfl | ⟨2, _⟩ => rfl)
  have el : ∀ k : Fin 3, lidx_main_v4 (ix3 b P Q) k = ix3 b P k := fun k =>
    funext fun a => Fin.ext (by match a with | ⟨0, _⟩ => rfl | ⟨1, _⟩ => rfl | ⟨2, _⟩ => rfl)
  have er : ∀ k : Fin 3, ridx_main_v4 (ix3 b P Q) k = ix3 b Q k := fun k =>
    funext fun a => Fin.ext (by match a with | ⟨0, _⟩ => rfl | ⟨1, _⟩ => rfl | ⟨2, _⟩ => rfl)
  rw [val_main_v12_apply, val_main_v9_apply, val_main_v11_apply, val_main_v7_apply, val_main_v5_apply, val_main_v1_apply,
    val_main_v8_apply, val_main_v6_apply, val_main_v3_apply, val_main_v10_apply, val_main_v4_apply]
  simp only [e1, e3, el, er, val_main_v0_apply, val_main_v2_apply, val_main_cst_apply, val_main_cst_0_apply,
    val_main_cst_1_apply, Ideal.ofBits_def, Ideal.ofBits_zero_f32, zero_add, Ideal.mulf_def, Ideal.addf_def, Ideal.subf_def]
  rfl

/-- The minimum over the first cloud, for every point of the second. -/
theorem v13_eq (X Y : (⟨S8x4096x3, .f32⟩ : BufTy).Contents (Elt Ideal)) : val_main_v13 (F := Ideal) X Y = colArr X Y := by
  funext i
  obtain ⟨b, n, rfl⟩ : ∃ (b : Fin 8) (n : Fin 4096), i = ix2 b n := ⟨i 0, i 1, eq_ix2 i⟩
  unfold val_main_v13
  refine (Host.reduce_eq_fold_single FloatOps.minimumf _ _ reducesTo_S8x4096x4096_S8x4096_d1 (by decide) h_S_ (ix2 b n)).trans ?_
  show _ = ⨅ P : Fin 4096, pd X Y b P n
  refine eq_iInf_of_forall_le_iff fun a => ?_
  have e : (val_main_v12 (F := Ideal) X Y ∘ (by decide : S8x4096x4096.Reduces [1] S8x4096).lift (ix2 b n))
      = fun P : Fin 4096 => pd X Y b P n :=
    funext fun P => (congrArg (val_main_v12 (F := Ideal) X Y)
      (funext fun ax => Fin.ext (by match ax with | ⟨0, _⟩ => rfl | ⟨1, _⟩ => rfl | ⟨2, _⟩ => rfl))).trans (v12_apply X Y b P n)
  rw [e]
  show a ≤ (Finset.univ : Finset (Fin 4096)).fold min (Ideal.ofBits .f32 0x7F800000#32) _ ↔ _
  rw [ofBits_inf, le_fold_min_top_iff]

/-- The minimum over the second cloud, for every point of the first. -/
theorem v16_eq (X Y : (⟨S8x4096x3, .f32⟩ : BufTy).Contents (Elt Ideal)) : val_main_v16 (F := Ideal) X Y = rowArr X Y := by
  funext i
  obtain ⟨b, n, rfl⟩ : ∃ (b : Fin 8) (n : Fin 4096), i = ix2 b n := ⟨i 0, i 1, eq_ix2 i⟩
  unfold val_main_v16
  refine (Host.reduce_eq_fold_single FloatOps.minimumf _ _ reducesTo_S8x4096x4096_S8x4096_d2 (by decide) h_S_ (ix2 b n)).trans ?_
  show _ = ⨅ Q : Fin 4096, pd X Y b n Q
  refine eq_iInf_of_forall_le_iff fun a => ?_
  have e : (val_main_v12 (F := Ideal) X Y ∘ (by decide : S8x4096x4096.Reduces [2] S8x4096).lift (ix2 b n))
      = fun Q : Fin 4096 => pd X Y b n Q :=
    funext fun Q => (congrArg (val_main_v12 (F := Ideal) X Y)
      (funext fun ax => Fin.ext (by match ax with | ⟨0, _⟩ => rfl | ⟨1, _⟩ => rfl | ⟨2, _⟩ => rfl))).trans (v12_apply X Y b n Q)
  rw [e]
  show a ≤ (Finset.univ : Finset (Fin 4096)).fold min (Ideal.ofBits .f32 0x7F800000#32) _ ↔ _
  rw [ofBits_inf, le_fold_min_top_iff]

/-- THE REFERENCE'S RESULT is the loss of its two arguments. -/
theorem result_eq (X Y : (⟨S8x4096x3, .f32⟩ : BufTy).Contents (Elt Ideal)) :
    val_main_v20 (F := Ideal) X Y = loss reducesTo_S8x4096_S_d0_1 h_S_ (colArr X Y) (rowArr X Y) := by
  rw [← v13_eq, ← v16_eq]
  rfl

end Cert.ReferenceIdeal.RefValue

end
-- ==== Proof.lean ====
/-
  The symmetric nearest-neighbour (Chamfer) loss of two batches of 4096 points of ℝ³: a tiled kernel against the plain
  formula. Over the extended reals both programs compute, for every point of either cloud, the infimum over the other
  cloud of |x|² + |y|² − 2⟨x, y⟩, then the sum of the two means times a literal.

  The kernel walks an (8, 4, 4) grid of (batch, row tile, column tile) and keeps two running minima in its output
  buffers: per row over the column tiles of a row tile, per column over all sixteen tiles of a batch, each restarted
  from +∞ when its sweep begins. Its run is three cases of the body; what the buffers hold is a recursion on the point;
  two invariants say which squared distances each running minimum has seen; the write-backs happen exactly when a
  running minimum has seen a whole row or column, and tile the two result arrays. The reference's run is read one
  operation at a time. Both results are the one function `Chamfer.loss` of the argument clouds. A minimum is compared
  through its lower bounds (a value is the infimum of a family when its lower bounds are the family's common lower
  bounds), and every sum is over the same three coordinates on both sides, so nothing about the inputs beyond being
  extended reals is used.
-/
import proofs.«180144_j377957122587_2_alg».proof.Defs
import proofs.«180144_j377957122587_2_alg».proof.Proof.Gen.Kernel
import proofs.«180144_j377957122587_2_alg».proof.Proof.Gen.KernelIdeal
import proofs.«180144_j377957122587_2_alg».proof.Proof.Gen.ReferenceIdeal
import proofs.«180144_j377957122587_2_alg».proof.Proof.Gen.ReferenceIdeal.Read
import proofs.«180144_j377957122587_2_alg».proof.Proof.Gen.Pre_finite_inputs
import proofs.«180144_j377957122587_2_alg».proof.Proof.KFrame
import proofs.«180144_j377957122587_2_alg».proof.Proof.KITail
import proofs.«180144_j377957122587_2_alg».proof.Proof.RefValue
import Idealize.ShloMosaic.Adequacy
import Idealize.ShloMosaic.Init

noncomputable section

namespace Cert.Proof

open Idealize.ShloMosaic Idealize.ShloMosaic.TcCoe Idealize.SL.Sem Chamfer

/-- The kernel program as printed runs and keeps its arguments. -/
theorem frame_k : Cert.frame_Kernel := fun m ρ _ => Cert.Kernel.Body.frame (F := Bits) m ρ

/-- So does its reading over the extended reals. -/
theorem frame_ki : Cert.frame_KernelIdeal := fun m ρ _ => Cert.KernelIdeal.Body.frame (F := Ideal) m ρ

/-- The reference runs and keeps its arguments: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the two clouds, both programs end at the loss of those clouds. -/
theorem algebraic : Cert.algebraic_KernelIdeal_ReferenceIdeal := by
  intro m ρ m' ρ' _ hagree
  refine ⟨_, Cert.KernelIdeal.Val.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v20_eq, Cert.ReferenceIdeal.RefValue.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
